-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x256x3 : Shape := ⟨3, ![8, 256, 3]⟩
abbrev S8x256 : Shape := ⟨2, ![8, 256]⟩
abbrev S8x256x256 : Shape := ⟨3, ![8, 256, 256]⟩
abbrev S8x256x1 : Shape := ⟨3, ![8, 256, 1]⟩
abbrev S8x1x256 : Shape := ⟨3, ![8, 1, 256]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8x256x3, .f32⟩
  | .local _ .vmem, ⟨1, _⟩ => ⟨S8x256x3, .f32⟩
  | .local _ .vmem, ⟨2, _⟩ => ⟨S8x256x3, .f32⟩
  | .local _ .vmem, ⟨3, _⟩ => ⟨S8x256x3, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256x3, .f32⟩
  | .local _ .vmem, ⟨8, _⟩ => ⟨S8x256x3, .f32⟩
  | .local _ .vmem, ⟨9, _⟩ => ⟨S8x256x3, .f32⟩
  | .local _ .vmem, ⟨10, _⟩ => ⟨S8x256x3, .f32⟩
  | .local _ .vmem, ⟨11, _⟩ => ⟨S8x256, .f32⟩
  | .local _ .vmem, ⟨12, _⟩ => ⟨S8x256, .f32⟩
  | .local _ .vmem, ⟨13, _⟩ => ⟨S8x256, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x3_S8x256x3_0_0_0 : ∀ a, (![0, 0, 0] : Fin 3 → Nat) a + S8x256x3.size a ≤ S8x256x3.size a
  h_S8x256x3 : 0 < S8x256x3.numel
  reduces_S8x256x3_S8x256 : S8x256x3.Reduces [2] S8x256
  bitsLt_bf16_f32 : FTy.bits .bf16 < FTy.bits .f32
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reducesTo_S8x4096_S_d0_1 : S8x4096.ReducesTo [0, 1] S_
  h_S_ : 0 < S_.numel
  dot_S8x256x3_S8x256x3_S8x256x256_2_2_1_1_0_0_wf : DotDims.WF S8x256x3 S8x256x3 S8x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x3.size a ≤ S8x4096x3.size a
  hwx0_0 : ∀ i : grid0.Coords, EltTy.bits .f32 = 32 ∨ (Rect.block (s := S8x4096x3) S8x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x4096.size a
  hwx0_2 : ∀ i : grid0.Coords, EltTy.bits .f32 = 32 ∨ (Rect.block (s := S8x4096) S8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x3.size a ≤ S8x4096x3.size a
  hwx1_0 : ∀ i : grid1.Coords, EltTy.bits .f32 = 32 ∨ (Rect.block (s := S8x4096x3) S8x256x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x3.size a ≤ S8x4096x3.size a
  hwx1_1 : ∀ i : grid1.Coords, EltTy.bits .f32 = 32 ∨ (Rect.block (s := S8x4096x3) S8x256x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S8x4096.size a
  hwx1_2 : ∀ i : grid1.Coords, EltTy.bits .f32 = 32 ∨ (Rect.block (s := S8x4096) S8x256.size (cc1_transform_2 i) (hinb1_2 i)).WholeWords (EltTy.packing .f32)

variable [Facts₀]

def dot_S8x256x3_S8x256x3_S8x256x256_2_2_1_1_0_0 : DotDims S8x256x3 S8x256x3 S8x256x256 where
  lhsContracting := [2]
  rhsContracting := [2]
  lhsNonContracting := [1]
  rhsNonContracting := [1]
  lhsBatch := [0]
  rhsBatch := [0]
  wf := dot_S8x256x3_S8x256x3_S8x256x256_2_2_1_1_0_0_wf

abbrev win0_0 : Pipeline.Window sig grid0 :=
  Pipeline.Window.ofSpec (Memref.whole main_arg0) S8x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S8x256x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x256x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.KB.Conds0.lean ====
/-
  The nearest-point kernel (pallas_call 0): its two branch conditions decided over the 16 × 16 grid (point number
  t = 16 i + j: "first column tile" is j = 0, "last column tile" is j = 15), where its windows are idle, and the
  memrefs its body is called with.
-/
import proofs.«172201_j74955769249969_1_alg».proof.Proof.Gen.Kernel.Launch
import proofs.«172201_j74955769249969_1_alg».proof.Proof.Gen.Kernel.Skeleton
import proofs.«172201_j74955769249969_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Nearest0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "this is the first column tile": the body's first conditional, from the grid coordinates. -/
abbrev isFirst (i : grid0.Coords) : Prop :=
  (Scalar.cmpi .ne (Scalar.extui (Scalar.cmpi .eq (BitVec.ofNat 32 (i 1).val) 0#32)) 0#32) = 1#1
/-- It holds exactly at the points with j = 0. -/
theorem isFirst_iff : ∀ t : Fin cfg0.N, isFirst (grid0.coords t) ↔ t.val % 16 = 0 :=
  (by decide +kernel : ∀ t : Fin grid0.N, isFirst (grid0.coords t) ↔ t.val % 16 = 0)

/-- "this is the last column tile": the body's second conditional. -/
abbrev isLast (i : grid0.Coords) : Prop := k0_cond2 i = 1#1
/-- It holds exactly at the points with j = 15. -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Away from the last column tile the output block is not stored into, -/
theorem idle_out : ∀ t : Fin cfg0.N, ¬isLast (grid0.coords t) → cfg0.idle 2 (grid0.coords t) = true := by decide +kernel
/-- and not written back; -/
theorem noFlush_out : ∀ t : Fin cfg0.N, ¬isLast (grid0.coords t) → (cfg0.win 2).flush t = false := by decide +kernel
/-- at the last column tile it is stored into. -/
theorem live_out : ∀ t : Fin cfg0.N, isLast (grid0.coords t) → cfg0.idle 2 (grid0.coords t) = false := by decide +kernel

/-! ## The memrefs the body is called with -/

abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
/-- The scratch block: a whole scoped buffer of the kernel's own. -/
abbrev scM : Memref sig .tc .vmem S8x256 .f32 := Memref.whole cc0_scratch0
/-- The scratch and one output staging buffer as views, through which contents are stated. -/
abbrev VS : View sig .tc .vmem S8x256 .f32 := (scM : Memref sig .tc .vmem S8x256 .f32).view
abbrev VO : View sig .tc .vmem S8x256 .f32 := (Memref.whole cc0_stg2_0 : Memref sig .tc .vmem S8x256 .f32).view

end Cert.Kernel.Nearest0

end
-- ==== Proof.KB.Run0A.lean ====
/-
  The body of the nearest-point kernel (pallas_call 0) at a point with j = 0: the scratch is reset to +∞ and then
  replaced by the minimum of +∞ and this tile's least distance. From the two input blocks and the output block at
  their contents and the scratch at anything, the body runs to the end leaving the three blocks as they were and
  the scratch written with the stores the run finds.
-/
import proofs.«172201_j74955769249969_1_alg».proof.Proof.KB.Conds0

set_option maxRecDepth 16384

noncomputable section

namespace Cert.Kernel.Nearest0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case A (j = 0): the reset, then the update from +∞. The scratch may hold anything before; the output block is not touched. -/
noncomputable def runA (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) :
    { LS : List (View.Piece (Elt F) S8x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LS)) -∗ K ⟨⟩))
          ⊢ wp frame (wpE (defs₀ (F := F)) Variants.none c none) E (cc0__colmin_kernel i arg2 harg2 arg3 harg3 arg4 harg4 arg5 harg5) K } := by
  refine ⟨?_, fun E K => ?run⟩
  case run =>
    simp only [cc0__colmin_kernel_eq_skeleton]; unfold cc0__colmin_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

end Cert.Kernel.Nearest0

end
-- ==== Proof.KB.Run0B.lean ====
/-
  The body of the nearest-point kernel (pallas_call 0) at a point with 0 < j < 15: the scratch, held at given
  contents, is replaced by the minimum of those and this tile's least distance; the output block is left as it was.
-/
import proofs.«172201_j74955769249969_1_alg».proof.Proof.KB.Conds0

set_option maxRecDepth 16384

noncomputable section

namespace Cert.Kernel.Nearest0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case B (0 < j < 15): the update from what the scratch held; the output block is not touched. -/
noncomputable def runB (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) :
    { LS : List (View.Piece (Elt F) S8x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LS)) -∗ K ⟨⟩))
          ⊢ wp frame (wpE (defs₀ (F := F)) Variants.none c none) E (cc0__colmin_kernel i arg2 harg2 arg3 harg3 arg4 harg4 arg5 harg5) K } := by
  refine ⟨?_, fun E K => ?run⟩
  case run =>
    simp only [cc0__colmin_kernel_eq_skeleton]; unfold cc0__colmin_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

end Cert.Kernel.Nearest0

end
-- ==== Proof.KB.Run0C.lean ====
/-
  The body of the nearest-point kernel (pallas_call 0) at a point with j = 15: the scratch is updated as at
  every point and then copied into the output block.
-/
import proofs.«172201_j74955769249969_1_alg».proof.Proof.KB.Conds0

set_option maxRecDepth 16384

noncomputable section

namespace Cert.Kernel.Nearest0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case C (j = 15): the update from what the scratch held, then the scratch copied into the output block. -/
noncomputable def runC (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    Σ' (L2 : List (View.Piece (Elt F) S8x256 .f32)), { LS : List (View.Piece (Elt F) S8x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__colmin_kernel i arg2 harg2 arg3 harg3 arg4 harg4 arg5 harg5) K } := by
  refine ⟨?_, ?_, fun E K => ?run⟩
  case run =>
    simp only [cc0__colmin_kernel_eq_skeleton]; unfold cc0__colmin_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Nearest0

end
-- ==== Proof.KB.Body0.lean ====
/-
  The nearest-point kernel (pallas_call 0) point by point.

  Point t = 16 i + j works on row tile i of the first cloud and column tile j of the second. Write x_t, y_t for
  the two input blocks at point t. The scratch block after point t holds
      acc t = update x_t y_t (if j = 0 then +∞ else acc (t − 1)),
  where update is the body's payload `k0_pay2` (the minimum of what the scratch held and this tile's least
  distances). The output's staging block is stored only at j = 15, with acc t. Between points the invariant
  keeps the scratch at acc of the point before, beside whatever turns "the scratch at anything" back into the
  region's own rest (the other scoped buffers and the generator register), which the body never looks at.
-/
import proofs.«172201_j74955769249969_1_alg».proof.Proof.KB.Run0A
import proofs.«172201_j74955769249969_1_alg».proof.Proof.KB.Run0B
import proofs.«172201_j74955769249969_1_alg».proof.Proof.KB.Run0C
import Idealize.ShloMosaic.Lib.Pipeline.Frame
import Idealize.ShloMosaic.Lib.Pipeline.Value

set_option maxRecDepth 16384

noncomputable section

namespace Cert.Kernel.Nearest0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the runs' stores leave, as payloads -/

theorem hz2 : (![0, 0] : Fin 2 → ℕ) = fun _ => 0 := by funext a; fin_cases a <;> rfl
theorem hz3 : (![0, 0, 0] : Fin 3 → ℕ) = fun _ => 0 := by funext a; fin_cases a <;> rfl

/-- Case A's stores into the scratch (the reset, then the update) cover it, -/
theorem coverS_A (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) (y : S8x256.Idx) :
    ∃ pc ∈ (runA c i arg2 harg2 arg3 harg3 arg4 harg4 arg5 harg5 hc0 hc1 x0 x1 x2).1, y ∈ pc.1.set :=
  View.cover_of_tiledL (runA c i arg2 harg2 arg3 harg3 arg4 harg4 arg5 harg5 hc0 hc1 x0 x1 x2).1 S8x256.size (by sl_kernel_rfl) y
/-- and leave the update of +∞ by the two blocks. -/
theorem canonS_A (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) :
    View.canon (runA c i arg2 harg2 arg3 harg3 arg4 harg4 arg5 harg5 hc0 hc1 x0 x1 x2).1 = k0_pay2 x0 x1 k0_pay1 := by
  unfold runA; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-- Case B's one store into the scratch covers it, -/
theorem coverS_B (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) (y : S8x256.Idx) :
    ∃ pc ∈ (runB c i arg2 harg2 arg3 harg3 arg4 harg4 arg5 harg5 hc0 hc1 x0 x1 x2 xs).1, y ∈ pc.1.set :=
  View.cover_of_tiledL (runB c i arg2 harg2 arg3 harg3 arg4 harg4 arg5 harg5 hc0 hc1 x0 x1 x2 xs).1 S8x256.size (by sl_kernel_rfl) y
/-- and leaves the update of what the scratch held. -/
theorem canonS_B (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) :
    View.canon (runB c i arg2 harg2 arg3 harg3 arg4 harg4 arg5 harg5 hc0 hc1 x0 x1 x2 xs).1 = k0_pay2 x0 x1 xs := by
  unfold runB; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-- Case C's store into the scratch covers it -/
theorem coverS_C (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) (y : S8x256.Idx) :
    ∃ pc ∈ (runC c i arg2 harg2 arg3 harg3 arg4 harg4 arg5 harg5 hc0 hc1 x0 x1 xs).2.1, y ∈ pc.1.set :=
  View.cover_of_tiledL (runC c i arg2 harg2 arg3 harg3 arg4 harg4 arg5 harg5 hc0 hc1 x0 x1 xs).2.1 S8x256.size (by sl_kernel_rfl) y
/-- and leaves the update of what the scratch held; -/
theorem canonS_C (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    View.canon (runC c i arg2 harg2 arg3 harg3 arg4 harg4 arg5 harg5 hc0 hc1 x0 x1 xs).2.1 = k0_pay2 x0 x1 xs := by
  unfold runC; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]
/-- its store into the output block covers it -/
theorem coverO_C (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) (y : S8x256.Idx) :
    ∃ pc ∈ (runC c i arg2 harg2 arg3 harg3 arg4 harg4 arg5 harg5 hc0 hc1 x0 x1 xs).1, y ∈ pc.1.set :=
  View.cover_of_tiledL (runC c i arg2 harg2 arg3 harg3 arg4 harg4 arg5 harg5 hc0 hc1 x0 x1 xs).1 S8x256.size (by sl_kernel_rfl) y
/-- and leaves the same: the scratch read back after its update. -/
theorem canonO_C (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    View.canon (runC c i arg2 harg2 arg3 harg3 arg4 harg4 arg5 harg5 hc0 hc1 x0 x1 xs).1 = k0_pay2 x0 x1 xs := by
  unfold runC; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-! ## The blocks and the accumulator -/

-- the contents of the core's unscoped buffers when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch holds after point `n`: the update of +∞ at the first column tile of a row, of the point
    before otherwise. -/
def accAt (c : Dev nD) : (n : ℕ) → n < cfg0.N → Vec F S8x256 .f32
  | 0, hn => k0_pay2 (iblk V c 0 ⟨0, hn⟩) (iblk V c 1 ⟨0, hn⟩) k0_pay1
  | n + 1, hn => k0_pay2 (iblk V c 0 ⟨n + 1, hn⟩) (iblk V c 1 ⟨n + 1, hn⟩)
      (if (n + 1) % 16 = 0 then k0_pay1 else accAt c n (Nat.lt_of_succ_lt hn))

theorem accAt_first (c : Dev nD) (t : Fin cfg0.N) (h : t.val % 16 = 0) :
    accAt V c t.val t.isLt = k0_pay2 (iblk V c 0 t) (iblk V c 1 t) k0_pay1 := by
  obtain ⟨n, hn⟩ := t
  cases n with
  | zero => rfl
  | succ n => exact congrArg _ (if_pos h)

theorem accAt_next (c : Dev nD) (t : Fin cfg0.N) (h : ¬t.val % 16 = 0) :
    accAt V c t.val t.isLt = k0_pay2 (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- Before the first point: the region's rest as the launch hands it. Before a later point: the scratch at what
    the point before left, and what gives the rest back once the scratch is returned at anything. -/
def Phi (c : Dev nD) : (n : ℕ) → n ≤ cfg0.N → sProp 𝕄
  | 0, _ => Pipeline.ΦA spec0 c
  | n + 1, hn => iprop(owns (c : Thread nD τ) scM fullShare (accAt V c n hn)
      ∗ ((∃ d, owns (c : Thread nD τ) scM fullShare d) -∗ Pipeline.ΦA spec0 c))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(owns (c : Thread nD τ) scM fullShare (accAt V c n hn)
      ∗ ((∃ d, owns (c : Thread nD τ) scM fullShare d) -∗ Pipeline.ΦA spec0 c)) := rfl

theorem Phi_pos (c : Dev nD) (n : ℕ) (h : n ≤ cfg0.N) (hz : n ≠ 0) :
    Phi V c n h = iprop(owns (c : Thread nD τ) scM fullShare (accAt V c (n - 1) (by omega))
      ∗ ((∃ d, owns (c : Thread nD τ) scM fullShare d) -∗ Pipeline.ΦA spec0 c)) := by
  cases n with
  | zero => exact absurd rfl hz
  | succ n => rfl

/-- The region's rest holds the scratch at something, and takes it back at anything. -/
theorem PhiA_split (c : Dev nD) :
    (Pipeline.ΦA spec0 c : sProp 𝕄) ⊢ iprop((∃ d, owns (c : Thread nD τ) scM fullShare d)
      ∗ ((∃ d, owns (c : Thread nD τ) scM fullShare d) -∗ Pipeline.ΦA spec0 c)) := by
  unfold Pipeline.ΦA; rw [scopedRest0_eq]
  iintro ⟨⟨⟨%f, HS⟩, HR⟩, Hg⟩
  isplitl [HS]
  · iexists f; rw [owns_whole]; iexact HS
  iintro ⟨%d, HS⟩
  isplitl [HS HR]
  · isplitl [HS]
    · iexists d; rw [← owns_whole]; iexact HS
    iexact HR
  iexact Hg

/-! ## The proof data -/

/-- Core `c`'s proof data for this region: the arrays as the region finds them; after the body at point `t` each
    input's staging block at its block and the output's at the accumulator; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = accAt V c t.val t.isLt := by dsimp only [dat]

/-- Each input's current staging block holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4800000 in
/-- The body at any point: the inputs' memrefs hold their blocks; the closed forms of the two conditions say
    which case the point is in; the invariant hands over the scratch (at anything at j = 0, at the point
    before's accumulator otherwise) and takes it back at this point's accumulator; at j = 15 the output block
    is left at the accumulator, elsewhere as it was found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi V c (t.val + 1) t.isLt from rfl, Phi_succ]
  have hN : t.val < 256 := lt_of_lt_of_eq t.isLt (show cfg0.N = 256 from N_0)
  rw [show (dat V c).leavesExact 0 t = owns (c : Thread nD τ) (ms0 t) fullShare ((dat V c).after 0 t) from by
    unfold Dat.leavesExact; rw [live_in0 t], after_0]
  rw [show (dat V c).leavesExact 1 t = owns (c : Thread nD τ) (ms1 t) fullShare ((dat V c).after 1 t) from by
    unfold Dat.leavesExact; rw [live_in1 t], after_1]
  by_cases h0 : t.val % 16 = 0
  · have h1 : ¬t.val % 16 = 15 := by omega
    rw [Dat.leavesExact_idle (dat V c) 2 t (idle_out t (fun h => h1 ((isLast_iff t).mp h))) (noFlush_out t (fun h => h1 ((isLast_iff t).mp h)))]
    rw [accAt_first V c t h0]
    have hscr : (dat V c).Φ t.castSucc ⊢ (iprop((∃ d, owns (c : Thread nD τ) scM fullShare d)
        ∗ ((∃ d, owns (c : Thread nD τ) scM fullShare d) -∗ Pipeline.ΦA spec0 c)) : sProp 𝕄) := by
      rw [Phi_castSucc V c t]
      by_cases hz : t.val = 0
      · rw [Phi_zero V c _ _ hz]; exact PhiA_split c
      · rw [Phi_pos V c _ _ hz]
        iintro ⟨HS, HW⟩
        isplitl [HS]; · iexists _; iexact HS
        iexact HW
    iintro ⟨HΦ, Ho, ⟨%d0, H0⟩, ⟨%d1, H1⟩, ⟨%d2, H2⟩⟩
    ihave HΦ' := hscr $$ HΦ
    icases HΦ' with ⟨HS, HW⟩
    iapply ((runA c (grid0.coords t) _ _ _ _ _ _ _ _ ((isFirst_iff t).mpr h0) (fun h => h1 ((isLast_iff t).mp h)) (iblk V c 0 t) (iblk V c 1 t) _).2 Set.univ _)
    isplitl [H0]; · iexact H0
    isplitl [H1]; · iexact H1
    isplitl [H2]; · iexact H2
    isplitl [HS]; · iexact HS
    iintro ⟨H0, H1, H2, ⟨%es, HS⟩⟩
    isplitl [HS HW]
    · isplitl [HS]
      · unfold owns; iexists _; isplitr
        swap; · iexact HS
        ipureintro; exact (View.read_writes_eq_canon _ _ _ (coverS_A c _ _ _ _ _ _ _ _ _ _ _ _ _ _)).trans (canonS_A c _ _ _ _ _ _ _ _ _ _ _ _ _ _)
      iexact HW
    isplitl [Ho]; · iexact Ho
    isplitl [H0]; · iexact H0
    isplitl [H1]; · iexact H1
    iexists _; iexact H2
  · have hz : t.val ≠ 0 := fun h => h0 (by rw [h])
    rw [accAt_next V c t h0]
    by_cases h1 : t.val % 16 = 15
    · rw [show (dat V c).leavesExact 2 t = owns (c : Thread nD τ) (ms2 t) fullShare ((dat V c).after 2 t) from by
        unfold Dat.leavesExact; rw [live_out t ((isLast_iff t).mpr h1)], after_2, accAt_next V c t h0]
      rw [Phi_castSucc V c t, Phi_pos V c _ _ hz]
      iintro ⟨⟨HS, HW⟩, Ho, ⟨%d0, H0⟩, ⟨%d1, H1⟩, ⟨%d2, H2⟩⟩
      iapply ((runC c (grid0.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HW]
      · isplitl [HS]
        · unfold owns; iexists _; isplitr
          swap; · iexact HS
          ipureintro; exact (View.read_writes_eq_canon _ _ _ (coverS_C c _ _ _ _ _ _ _ _ _ _ _ _ _ _)).trans (canonS_C c _ _ _ _ _ _ _ _ _ _ _ _ _ _)
        iexact HW
      isplitl [Ho]; · iexact Ho
      isplitl [H0]; · iexact H0
      isplitl [H1]; · iexact H1
      unfold owns; iexists _; isplitr
      swap; · iexact H2
      ipureintro; exact (View.read_writes_eq_canon _ _ _ (coverO_C c _ _ _ _ _ _ _ _ _ _ _ _ _ _)).trans (canonO_C c _ _ _ _ _ _ _ _ _ _ _ _ _ _)
    · rw [Dat.leavesExact_idle (dat V c) 2 t (idle_out t (fun h => h1 ((isLast_iff t).mp h))) (noFlush_out t (fun h => h1 ((isLast_iff t).mp h)))]
      rw [Phi_castSucc V c t, Phi_pos V c _ _ hz]
      iintro ⟨⟨HS, HW⟩, Ho, ⟨%d0, H0⟩, ⟨%d1, H1⟩, ⟨%d2, H2⟩⟩
      iapply ((runB c (grid0.coords t) _ _ _ _ _ _ _ _ (fun h => h0 ((isFirst_iff t).mp h)) (fun h => h1 ((isLast_iff t).mp h)) (iblk V c 0 t) (iblk V c 1 t) _ _).2 Set.univ _)
      isplitl [H0]; · iexact H0
      isplitl [H1]; · iexact H1
      isplitl [H2]; · iexact H2
      isplitl [HS]; · iexact HS
      iintro ⟨H0, H1, H2, ⟨%es, HS⟩⟩
      isplitl [HS HW]
      · isplitl [HS]
        · unfold owns; iexists _; isplitr
          swap; · iexact HS
          ipureintro; exact (View.read_writes_eq_canon _ _ _ (coverS_B c _ _ _ _ _ _ _ _ _ _ _ _ _ _ _)).trans (canonS_B c _ _ _ _ _ _ _ _ _ _ _ _ _ _ _)
        iexact HW
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the invariant gives the region's rest back: the scratch's contents are forgotten. -/
theorem hout (c : Dev nD) : (dat V c).Φ (Fin.last cfg0.N) ⊢ Pipeline.ΦA spec0 c := by
  have hne : (Fin.last cfg0.N).val ≠ 0 := by rw [Fin.val_last]; have : cfg0.N = 256 := N_0; omega
  rw [show (dat V c).Φ (Fin.last cfg0.N) = Phi V c (Fin.last cfg0.N).val (Nat.le_of_lt_succ (Fin.last cfg0.N).isLt) from rfl,
    Phi_pos V c _ _ hne]
  iintro ⟨HS, HW⟩
  iapply HW
  iexists _; iexact HS

end Cert.Kernel.Nearest0

end
-- ==== Proof.KB.Conds1.lean ====
/-
  The nearest-point kernel (pallas_call 1): its two branch conditions decided over the 16 × 16 grid (point number
  t = 16 i + j: "first column tile" is j = 0, "last column tile" is j = 15), where its windows are idle, and the
  memrefs its body is called with.
-/
import proofs.«172201_j74955769249969_1_alg».proof.Proof.Gen.Kernel.Launch
import proofs.«172201_j74955769249969_1_alg».proof.Proof.Gen.Kernel.Skeleton
import proofs.«172201_j74955769249969_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Nearest1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "this is the first column tile": the body's first conditional, from the grid coordinates. -/
abbrev isFirst (i : grid1.Coords) : Prop :=
  (Scalar.cmpi .ne (Scalar.extui (Scalar.cmpi .eq (BitVec.ofNat 32 (i 1).val) 0#32)) 0#32) = 1#1
/-- It holds exactly at the points with j = 0. -/
theorem isFirst_iff : ∀ t : Fin cfg1.N, isFirst (grid1.coords t) ↔ t.val % 16 = 0 :=
  (by decide +kernel : ∀ t : Fin grid1.N, isFirst (grid1.coords t) ↔ t.val % 16 = 0)

/-- "this is the last column tile": the body's second conditional. -/
abbrev isLast (i : grid1.Coords) : Prop := k1_cond2 i = 1#1
/-- It holds exactly at the points with j = 15. -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
/-- Away from the last column tile the output block is not stored into, -/
theorem idle_out : ∀ t : Fin cfg1.N, ¬isLast (grid1.coords t) → cfg1.idle 2 (grid1.coords t) = true := by decide +kernel
/-- and not written back; -/
theorem noFlush_out : ∀ t : Fin cfg1.N, ¬isLast (grid1.coords t) → (cfg1.win 2).flush t = false := by decide +kernel
/-- at the last column tile it is stored into. -/
theorem live_out : ∀ t : Fin cfg1.N, isLast (grid1.coords t) → cfg1.idle 2 (grid1.coords t) = false := by decide +kernel

/-! ## The memrefs the body is called with -/

abbrev ms0 (t : Fin cfg1.N) : Memref sig .tc .vmem S8x256x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8x256x3 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S8x256 .f32 := win1_2.stage (cfg1.slots t 2)
abbrev hs2 (t : Fin cfg1.N) : (ms2 t).IsWhole := hstage1_2 ((cfg1.slots t 2).cast nbuf1_2)
/-- The scratch block: a whole scoped buffer of the kernel's own. -/
abbrev scM : Memref sig .tc .vmem S8x256 .f32 := Memref.whole cc1_scratch0
/-- The scratch and one output staging buffer as views, through which contents are stated. -/
abbrev VS : View sig .tc .vmem S8x256 .f32 := (scM : Memref sig .tc .vmem S8x256 .f32).view
abbrev VO : View sig .tc .vmem S8x256 .f32 := (Memref.whole cc1_stg2_0 : Memref sig .tc .vmem S8x256 .f32).view

end Cert.Kernel.Nearest1

end
-- ==== Proof.KB.Run1A.lean ====
/-
  The body of the nearest-point kernel (pallas_call 1) at a point with j = 0: the scratch is reset to +∞ and then
  replaced by the minimum of +∞ and this tile's least distance. From the two input blocks and the output block at
  their contents and the scratch at anything, the body runs to the end leaving the three blocks as they were and
  the scratch written with the stores the run finds.
-/
import proofs.«172201_j74955769249969_1_alg».proof.Proof.KB.Conds1

set_option maxRecDepth 16384

noncomputable section

namespace Cert.Kernel.Nearest1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case A (j = 0): the reset, then the update from +∞. The scratch may hold anything before; the output block is not touched. -/
noncomputable def runA (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) :
    { LS : List (View.Piece (Elt F) S8x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LS)) -∗ K ⟨⟩))
          ⊢ wp frame (wpE (defs₀ (F := F)) Variants.none c none) E (cc1__colmin_kernel i arg2 harg2 arg3 harg3 arg4 harg4 arg5 harg5) K } := by
  refine ⟨?_, fun E K => ?run⟩
  case run =>
    simp only [cc1__colmin_kernel_eq_skeleton]; unfold cc1__colmin_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

end Cert.Kernel.Nearest1

end
-- ==== Proof.KB.Run1B.lean ====
/-
  The body of the nearest-point kernel (pallas_call 1) at a point with 0 < j < 15: the scratch, held at given
  contents, is replaced by the minimum of those and this tile's least distance; the output block is left as it was.
-/
import proofs.«172201_j74955769249969_1_alg».proof.Proof.KB.Conds1

set_option maxRecDepth 16384

noncomputable section

namespace Cert.Kernel.Nearest1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case B (0 < j < 15): the update from what the scratch held; the output block is not touched. -/
noncomputable def runB (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) :
    { LS : List (View.Piece (Elt F) S8x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LS)) -∗ K ⟨⟩))
          ⊢ wp frame (wpE (defs₀ (F := F)) Variants.none c none) E (cc1__colmin_kernel i arg2 harg2 arg3 harg3 arg4 harg4 arg5 harg5) K } := by
  refine ⟨?_, fun E K => ?run⟩
  case run =>
    simp only [cc1__colmin_kernel_eq_skeleton]; unfold cc1__colmin_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

end Cert.Kernel.Nearest1

end
-- ==== Proof.KB.Run1C.lean ====
/-
  The body of the nearest-point kernel (pallas_call 1) at a point with j = 15: the scratch is updated as at
  every point and then copied into the output block.
-/
import proofs.«172201_j74955769249969_1_alg».proof.Proof.KB.Conds1

set_option maxRecDepth 16384

noncomputable section

namespace Cert.Kernel.Nearest1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case C (j = 15): the update from what the scratch held, then the scratch copied into the output block. -/
noncomputable def runC (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    Σ' (L2 : List (View.Piece (Elt F) S8x256 .f32)), { LS : List (View.Piece (Elt F) S8x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__colmin_kernel i arg2 harg2 arg3 harg3 arg4 harg4 arg5 harg5) K } := by
  refine ⟨?_, ?_, fun E K => ?run⟩
  case run =>
    simp only [cc1__colmin_kernel_eq_skeleton]; unfold cc1__colmin_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Nearest1

end
-- ==== Proof.KB.Body1.lean ====
/-
  The nearest-point kernel (pallas_call 1) point by point.

  Point t = 16 i + j works on row tile i of the first cloud and column tile j of the second. Write x_t, y_t for
  the two input blocks at point t. The scratch block after point t holds
      acc t = update x_t y_t (if j = 0 then +∞ else acc (t − 1)),
  where update is the body's payload `k1_pay2` (the minimum of what the scratch held and this tile's least
  distances). The output's staging block is stored only at j = 15, with acc t. Between points the invariant
  keeps the scratch at acc of the point before, beside whatever turns "the scratch at anything" back into the
  region's own rest (the other scoped buffers and the generator register), which the body never looks at.
-/
import proofs.«172201_j74955769249969_1_alg».proof.Proof.KB.Run1A
import proofs.«172201_j74955769249969_1_alg».proof.Proof.KB.Run1B
import proofs.«172201_j74955769249969_1_alg».proof.Proof.KB.Run1C
import Idealize.ShloMosaic.Lib.Pipeline.Frame
import Idealize.ShloMosaic.Lib.Pipeline.Value

set_option maxRecDepth 16384

noncomputable section

namespace Cert.Kernel.Nearest1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the runs' stores leave, as payloads -/

theorem hz2 : (![0, 0] : Fin 2 → ℕ) = fun _ => 0 := by funext a; fin_cases a <;> rfl
theorem hz3 : (![0, 0, 0] : Fin 3 → ℕ) = fun _ => 0 := by funext a; fin_cases a <;> rfl

/-- Case A's stores into the scratch (the reset, then the update) cover it, -/
theorem coverS_A (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) (y : S8x256.Idx) :
    ∃ pc ∈ (runA c i arg2 harg2 arg3 harg3 arg4 harg4 arg5 harg5 hc0 hc1 x0 x1 x2).1, y ∈ pc.1.set :=
  View.cover_of_tiledL (runA c i arg2 harg2 arg3 harg3 arg4 harg4 arg5 harg5 hc0 hc1 x0 x1 x2).1 S8x256.size (by sl_kernel_rfl) y
/-- and leave the update of +∞ by the two blocks. -/
theorem canonS_A (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) :
    View.canon (runA c i arg2 harg2 arg3 harg3 arg4 harg4 arg5 harg5 hc0 hc1 x0 x1 x2).1 = k1_pay2 x0 x1 k1_pay1 := by
  unfold runA; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-- Case B's one store into the scratch covers it, -/
theorem coverS_B (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) (y : S8x256.Idx) :
    ∃ pc ∈ (runB c i arg2 harg2 arg3 harg3 arg4 harg4 arg5 harg5 hc0 hc1 x0 x1 x2 xs).1, y ∈ pc.1.set :=
  View.cover_of_tiledL (runB c i arg2 harg2 arg3 harg3 arg4 harg4 arg5 harg5 hc0 hc1 x0 x1 x2 xs).1 S8x256.size (by sl_kernel_rfl) y
/-- and leaves the update of what the scratch held. -/
theorem canonS_B (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) :
    View.canon (runB c i arg2 harg2 arg3 harg3 arg4 harg4 arg5 harg5 hc0 hc1 x0 x1 x2 xs).1 = k1_pay2 x0 x1 xs := by
  unfold runB; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-- Case C's store into the scratch covers it -/
theorem coverS_C (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) (y : S8x256.Idx) :
    ∃ pc ∈ (runC c i arg2 harg2 arg3 harg3 arg4 harg4 arg5 harg5 hc0 hc1 x0 x1 xs).2.1, y ∈ pc.1.set :=
  View.cover_of_tiledL (runC c i arg2 harg2 arg3 harg3 arg4 harg4 arg5 harg5 hc0 hc1 x0 x1 xs).2.1 S8x256.size (by sl_kernel_rfl) y
/-- and leaves the update of what the scratch held; -/
theorem canonS_C (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    View.canon (runC c i arg2 harg2 arg3 harg3 arg4 harg4 arg5 harg5 hc0 hc1 x0 x1 xs).2.1 = k1_pay2 x0 x1 xs := by
  unfold runC; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]
/-- its store into the output block covers it -/
theorem coverO_C (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) (y : S8x256.Idx) :
    ∃ pc ∈ (runC c i arg2 harg2 arg3 harg3 arg4 harg4 arg5 harg5 hc0 hc1 x0 x1 xs).1, y ∈ pc.1.set :=
  View.cover_of_tiledL (runC c i arg2 harg2 arg3 harg3 arg4 harg4 arg5 harg5 hc0 hc1 x0 x1 xs).1 S8x256.size (by sl_kernel_rfl) y
/-- and leaves the same: the scratch read back after its update. -/
theorem canonO_C (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    View.canon (runC c i arg2 harg2 arg3 harg3 arg4 harg4 arg5 harg5 hc0 hc1 x0 x1 xs).1 = k1_pay2 x0 x1 xs := by
  unfold runC; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-! ## The blocks and the accumulator -/

-- the contents of the core's unscoped buffers when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch holds after point `n`: the update of +∞ at the first column tile of a row, of the point
    before otherwise. -/
def accAt (c : Dev nD) : (n : ℕ) → n < cfg1.N → Vec F S8x256 .f32
  | 0, hn => k1_pay2 (iblk V c 0 ⟨0, hn⟩) (iblk V c 1 ⟨0, hn⟩) k1_pay1
  | n + 1, hn => k1_pay2 (iblk V c 0 ⟨n + 1, hn⟩) (iblk V c 1 ⟨n + 1, hn⟩)
      (if (n + 1) % 16 = 0 then k1_pay1 else accAt c n (Nat.lt_of_succ_lt hn))

theorem accAt_first (c : Dev nD) (t : Fin cfg1.N) (h : t.val % 16 = 0) :
    accAt V c t.val t.isLt = k1_pay2 (iblk V c 0 t) (iblk V c 1 t) k1_pay1 := by
  obtain ⟨n, hn⟩ := t
  cases n with
  | zero => rfl
  | succ n => exact congrArg _ (if_pos h)

theorem accAt_next (c : Dev nD) (t : Fin cfg1.N) (h : ¬t.val % 16 = 0) :
    accAt V c t.val t.isLt = k1_pay2 (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- Before the first point: the region's rest as the launch hands it. Before a later point: the scratch at what
    the point before left, and what gives the rest back once the scratch is returned at anything. -/
def Phi (c : Dev nD) : (n : ℕ) → n ≤ cfg1.N → sProp 𝕄
  | 0, _ => Pipeline.ΦA spec1 c
  | n + 1, hn => iprop(owns (c : Thread nD τ) scM fullShare (accAt V c n hn)
      ∗ ((∃ d, owns (c : Thread nD τ) scM fullShare d) -∗ Pipeline.ΦA spec1 c))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop(owns (c : Thread nD τ) scM fullShare (accAt V c n hn)
      ∗ ((∃ d, owns (c : Thread nD τ) scM fullShare d) -∗ Pipeline.ΦA spec1 c)) := rfl

theorem Phi_pos (c : Dev nD) (n : ℕ) (h : n ≤ cfg1.N) (hz : n ≠ 0) :
    Phi V c n h = iprop(owns (c : Thread nD τ) scM fullShare (accAt V c (n - 1) (by omega))
      ∗ ((∃ d, owns (c : Thread nD τ) scM fullShare d) -∗ Pipeline.ΦA spec1 c)) := by
  cases n with
  | zero => exact absurd rfl hz
  | succ n => rfl

/-- The region's rest holds the scratch at something, and takes it back at anything. -/
theorem PhiA_split (c : Dev nD) :
    (Pipeline.ΦA spec1 c : sProp 𝕄) ⊢ iprop((∃ d, owns (c : Thread nD τ) scM fullShare d)
      ∗ ((∃ d, owns (c : Thread nD τ) scM fullShare d) -∗ Pipeline.ΦA spec1 c)) := by
  unfold Pipeline.ΦA; rw [scopedRest1_eq]
  iintro ⟨⟨H1, H2, H3, H4, H5, H6, H7, ⟨%f, HS⟩⟩, Hg⟩
  isplitl [HS]
  · iexists f; rw [owns_whole]; iexact HS
  iintro ⟨%d, HS⟩
  isplitl [H1 H2 H3 H4 H5 H6 H7 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexists d; rw [← owns_whole]; iexact HS
  iexact Hg

/-! ## The proof data -/

/-- Core `c`'s proof data for this region: the arrays as the region finds them; after the body at point `t` each
    input's staging block at its block and the output's at the accumulator; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = Phi V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = accAt V c t.val t.isLt := by dsimp only [dat]

/-- Each input's current staging block holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4800000 in
/-- The body at any point: the inputs' memrefs hold their blocks; the closed forms of the two conditions say
    which case the point is in; the invariant hands over the scratch (at anything at j = 0, at the point
    before's accumulator otherwise) and takes it back at this point's accumulator; at j = 15 the output block
    is left at the accumulator, elsewhere as it was found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Phi V c (t.val + 1) t.isLt from rfl, Phi_succ]
  have hN : t.val < 256 := lt_of_lt_of_eq t.isLt (show cfg1.N = 256 from N_1)
  rw [show (dat V c).leavesExact 0 t = owns (c : Thread nD τ) (ms0 t) fullShare ((dat V c).after 0 t) from by
    unfold Dat.leavesExact; rw [live_in0 t], after_0]
  rw [show (dat V c).leavesExact 1 t = owns (c : Thread nD τ) (ms1 t) fullShare ((dat V c).after 1 t) from by
    unfold Dat.leavesExact; rw [live_in1 t], after_1]
  by_cases h0 : t.val % 16 = 0
  · have h1 : ¬t.val % 16 = 15 := by omega
    rw [Dat.leavesExact_idle (dat V c) 2 t (idle_out t (fun h => h1 ((isLast_iff t).mp h))) (noFlush_out t (fun h => h1 ((isLast_iff t).mp h)))]
    rw [accAt_first V c t h0]
    have hscr : (dat V c).Φ t.castSucc ⊢ (iprop((∃ d, owns (c : Thread nD τ) scM fullShare d)
        ∗ ((∃ d, owns (c : Thread nD τ) scM fullShare d) -∗ Pipeline.ΦA spec1 c)) : sProp 𝕄) := by
      rw [Phi_castSucc V c t]
      by_cases hz : t.val = 0
      · rw [Phi_zero V c _ _ hz]; exact PhiA_split c
      · rw [Phi_pos V c _ _ hz]
        iintro ⟨HS, HW⟩
        isplitl [HS]; · iexists _; iexact HS
        iexact HW
    iintro ⟨HΦ, Ho, ⟨%d0, H0⟩, ⟨%d1, H1⟩, ⟨%d2, H2⟩⟩
    ihave HΦ' := hscr $$ HΦ
    icases HΦ' with ⟨HS, HW⟩
    iapply ((runA c (grid1.coords t) _ _ _ _ _ _ _ _ ((isFirst_iff t).mpr h0) (fun h => h1 ((isLast_iff t).mp h)) (iblk V c 0 t) (iblk V c 1 t) _).2 Set.univ _)
    isplitl [H0]; · iexact H0
    isplitl [H1]; · iexact H1
    isplitl [H2]; · iexact H2
    isplitl [HS]; · iexact HS
    iintro ⟨H0, H1, H2, ⟨%es, HS⟩⟩
    isplitl [HS HW]
    · isplitl [HS]
      · unfold owns; iexists _; isplitr
        swap; · iexact HS
        ipureintro; exact (View.read_writes_eq_canon _ _ _ (coverS_A c _ _ _ _ _ _ _ _ _ _ _ _ _ _)).trans (canonS_A c _ _ _ _ _ _ _ _ _ _ _ _ _ _)
      iexact HW
    isplitl [Ho]; · iexact Ho
    isplitl [H0]; · iexact H0
    isplitl [H1]; · iexact H1
    iexists _; iexact H2
  · have hz : t.val ≠ 0 := fun h => h0 (by rw [h])
    rw [accAt_next V c t h0]
    by_cases h1 : t.val % 16 = 15
    · rw [show (dat V c).leavesExact 2 t = owns (c : Thread nD τ) (ms2 t) fullShare ((dat V c).after 2 t) from by
        unfold Dat.leavesExact; rw [live_out t ((isLast_iff t).mpr h1)], after_2, accAt_next V c t h0]
      rw [Phi_castSucc V c t, Phi_pos V c _ _ hz]
      iintro ⟨⟨HS, HW⟩, Ho, ⟨%d0, H0⟩, ⟨%d1, H1⟩, ⟨%d2, H2⟩⟩
      iapply ((runC c (grid1.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HW]
      · isplitl [HS]
        · unfold owns; iexists _; isplitr
          swap; · iexact HS
          ipureintro; exact (View.read_writes_eq_canon _ _ _ (coverS_C c _ _ _ _ _ _ _ _ _ _ _ _ _ _)).trans (canonS_C c _ _ _ _ _ _ _ _ _ _ _ _ _ _)
        iexact HW
      isplitl [Ho]; · iexact Ho
      isplitl [H0]; · iexact H0
      isplitl [H1]; · iexact H1
      unfold owns; iexists _; isplitr
      swap; · iexact H2
      ipureintro; exact (View.read_writes_eq_canon _ _ _ (coverO_C c _ _ _ _ _ _ _ _ _ _ _ _ _ _)).trans (canonO_C c _ _ _ _ _ _ _ _ _ _ _ _ _ _)
    · rw [Dat.leavesExact_idle (dat V c) 2 t (idle_out t (fun h => h1 ((isLast_iff t).mp h))) (noFlush_out t (fun h => h1 ((isLast_iff t).mp h)))]
      rw [Phi_castSucc V c t, Phi_pos V c _ _ hz]
      iintro ⟨⟨HS, HW⟩, Ho, ⟨%d0, H0⟩, ⟨%d1, H1⟩, ⟨%d2, H2⟩⟩
      iapply ((runB c (grid1.coords t) _ _ _ _ _ _ _ _ (fun h => h0 ((isFirst_iff t).mp h)) (fun h => h1 ((isLast_iff t).mp h)) (iblk V c 0 t) (iblk V c 1 t) _ _).2 Set.univ _)
      isplitl [H0]; · iexact H0
      isplitl [H1]; · iexact H1
      isplitl [H2]; · iexact H2
      isplitl [HS]; · iexact HS
      iintro ⟨H0, H1, H2, ⟨%es, HS⟩⟩
      isplitl [HS HW]
      · isplitl [HS]
        · unfold owns; iexists _; isplitr
          swap; · iexact HS
          ipureintro; exact (View.read_writes_eq_canon _ _ _ (coverS_B c _ _ _ _ _ _ _ _ _ _ _ _ _ _ _)).trans (canonS_B c _ _ _ _ _ _ _ _ _ _ _ _ _ _ _)
        iexact HW
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]

/-- After the last point the invariant gives the region's rest back: the scratch's contents are forgotten. -/
theorem hout (c : Dev nD) : (dat V c).Φ (Fin.last cfg1.N) ⊢ Pipeline.ΦA spec1 c := by
  have hne : (Fin.last cfg1.N).val ≠ 0 := by rw [Fin.val_last]; have : cfg1.N = 256 := N_1; omega
  rw [show (dat V c).Φ (Fin.last cfg1.N) = Phi V c (Fin.last cfg1.N).val (Nat.le_of_lt_succ (Fin.last cfg1.N).isLt) from rfl,
    Phi_pos V c _ _ hne]
  iintro ⟨HS, HW⟩
  iapply HW
  iexists _; iexact HS

end Cert.Kernel.Nearest1

end
-- ==== Proof.KB.Chain.lean ====
/-
  The whole program: the nearest-point kernel over (first cloud, second cloud), the same kernel over (second,
  first), then nine host operations (two means and their sum). Between two items every unscoped buffer of a core
  is held at a named valuation: `W0` the launch contents, `W1` after the first region (its output array at what
  the pipeline leaves in it), `W2` after the second, `W3` after the host operations. The run ends with every
  unscoped buffer at `W3`; the two arguments are never written, so they are read back unchanged.
-/
import proofs.«172201_j74955769249969_1_alg».proof.Proof.KB.Body0
import proofs.«172201_j74955769249969_1_alg».proof.Proof.KB.Body1
import proofs.«172201_j74955769249969_1_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Chain

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between items -/

/-- At launch. -/
abbrev W0 (c : Dev nD) : Valuation τ sig (Elt F) := fun b => m (c, b)
abbrev V0 : (c : Dev nD) → (b : Ref sig .tc) → Buf (Elt F) ((c : Thread nD τ).loc b) := fun c b => W0 m c b
/-- After the first region: its arrays at what the pipeline leaves, the rest as before. -/
def W1 (c : Dev nD) : Valuation τ sig (Elt F) :=
  Pipeline.withArrays spec0 c (W0 m c) fun w => (Nearest0.dat (V0 m) c).arrAt w cfg0.N
theorem W1_arr (c : Dev nD) (w : Fin cfg0.W) :
    W1 m c (Proc.devRef .tc (Pipeline.arrRef spec0 w)) = (Nearest0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Nearest0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (Nearest1.dat (V1 m) c).arrAt w cfg1.N
theorem W2_arr (c : Dev nD) (w : Fin cfg1.W) :
    W2 m c (Proc.devRef .tc (Pipeline.arrRef spec1 w)) = (Nearest1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Nearest1.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)
/-- After the host operations. -/
abbrev W3 (c : Dev nD) : Valuation τ sig (Elt F) := StableHlo.after hostOps2 (W2 m c)

/-! ## The arguments are never written -/

theorem W3_keeps (c : Dev nD) (r : Ref sig .tc) (h : r ∉ hostOps2_W) : W3 m c r = W2 m c r :=
  StableHlo.after_of_writes_sub hostOps2 _ hostOps2_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_keeps m c main_arg0 (by decide)
    _ = W1 m c (Proc.devRef .tc main_arg0) := (W2_arr m c 1).trans (((Nearest1.dat (V1 m) c).arrAt_in 1 rfl _).trans (Nearest1.A_eq (V1 m) c 1))
    _ = W0 m c (Proc.devRef .tc main_arg0) := (W1_arr m c 0).trans (((Nearest0.dat (V0 m) c).arrAt_in 0 rfl _).trans (Nearest0.A_eq (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_keeps m c main_arg1 (by decide)
    _ = W1 m c (Proc.devRef .tc main_arg1) := (W2_arr m c 0).trans (((Nearest1.dat (V1 m) c).arrAt_in 0 rfl _).trans (Nearest1.A_eq (V1 m) c 0))
    _ = W0 m c (Proc.devRef .tc main_arg1) := (W1_arr m c 1).trans (((Nearest0.dat (V0 m) c).arrAt_in 1 rfl _).trans (Nearest0.A_eq (V0 m) c 1))
    _ = m ((c : Thread nD τ).loc main_arg1) := rfl

/-! ## The proof data family and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Nearest0.dat (V0 m) c
  | ⟨1, _⟩ => fun c => Nearest1.dat (V1 m) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The items as segments -/

set_option backward.isDefEq.respectTransparency.types false in
/-- Region 0: entered with every unscoped buffer at `W0`, left with them at `W1`. Its three arrays are taken
    out of the unscoped buffers and put back at what the pipeline leaves in them; the generator register and the
    scoped rest go into the kernel's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Nearest0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P ∗ Pipeline.scopedRest (Ix := Unit) (Name := ℕ) (U := UR sig nD τ) (Lvl := ℕ) (Val := Elt F) spec0 c)
        ⊢ (Pipeline.ΦA spec0 c : sProp 𝕄) := fun P => by
      unfold Pipeline.ΦA
      iintro ⟨Hp, -, Hr⟩
      isplitl [Hr]; · iexact Hr
      iexact Hp
    exact (h _).trans (Nearest0.hin (V0 m) c)
  hout c := by
    rw [Pipeline.ownSems0_none]
    have h : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (Nearest0.hout (V0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W1`, left with them at `W2`. Its three arrays are taken
    out of the unscoped buffers and put back at what the pipeline leaves in them; the generator register and the
    scoped rest go into the kernel's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Nearest1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P ∗ Pipeline.scopedRest (Ix := Unit) (Name := ℕ) (U := UR sig nD τ) (Lvl := ℕ) (Val := Elt F) spec1 c)
        ⊢ (Pipeline.ΦA spec1 c : sProp 𝕄) := fun P => by
      unfold Pipeline.ΦA
      iintro ⟨Hp, -, Hr⟩
      isplitl [Hr]; · iexact Hr
      iexact Hp
    exact (h _).trans (Nearest1.hin (V1 m) c)
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (Nearest1.hout (V1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment over the unscoped buffers from `W2`. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev segs : List (Pipeline.Seg (pcfgs (F := F)) adm (pdats m) () defs₀ 𝒱₀ L lv) :=
  [ .region (reg0 m), .region (reg1 m), .host (hostSeg m) ]

theorem main_run (c : Dev nD) : main (F := F) c = Pipeline.Seg.run (segs m) := (main_chain c).trans (by chain_rfl)

set_option backward.isDefEq.respectTransparency.types false in
/-- From any memory with zero counters every weakly fair execution of the program terminates, nothing faulting,
    with every unscoped buffer of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.Kernel.Chain

end
-- ==== Proof.KI.Conds0.lean ====
/-
  The nearest-point kernel (pallas_call 0): its two branch conditions decided over the 16 × 16 grid (point number
  t = 16 i + j: "first column tile" is j = 0, "last column tile" is j = 15), where its windows are idle, and the
  memrefs its body is called with.
-/
import proofs.«172201_j74955769249969_1_alg».proof.Proof.Gen.KernelIdeal.Launch
import proofs.«172201_j74955769249969_1_alg».proof.Proof.Gen.KernelIdeal.Skeleton
import proofs.«172201_j74955769249969_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Nearest0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "this is the first column tile": the body's first conditional, from the grid coordinates. -/
abbrev isFirst (i : grid0.Coords) : Prop :=
  (Scalar.cmpi .ne (Scalar.extui (Scalar.cmpi .eq (BitVec.ofNat 32 (i 1).val) 0#32)) 0#32) = 1#1
/-- It holds exactly at the points with j = 0. -/
theorem isFirst_iff : ∀ t : Fin cfg0.N, isFirst (grid0.coords t) ↔ t.val % 16 = 0 :=
  (by decide +kernel : ∀ t : Fin grid0.N, isFirst (grid0.coords t) ↔ t.val % 16 = 0)

/-- "this is the last column tile": the body's second conditional. -/
abbrev isLast (i : grid0.Coords) : Prop := k0_cond2 i = 1#1
/-- It holds exactly at the points with j = 15. -/
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Away from the last column tile the output block is not stored into, -/
theorem idle_out : ∀ t : Fin cfg0.N, ¬isLast (grid0.coords t) → cfg0.idle 2 (grid0.coords t) = true := by decide +kernel
/-- and not written back; -/
theorem noFlush_out : ∀ t : Fin cfg0.N, ¬isLast (grid0.coords t) → (cfg0.win 2).flush t = false := by decide +kernel
/-- at the last column tile it is stored into. -/
theorem live_out : ∀ t : Fin cfg0.N, isLast (grid0.coords t) → cfg0.idle 2 (grid0.coords t) = false := by decide +kernel

/-! ## The memrefs the body is called with -/

abbrev ms0 (t : Fin cfg0.N) : Memref sig .tc .vmem S8x256x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x256 .f32 := win0_2.stage (cfg0.slots t 2)
abbrev hs2 (t : Fin cfg0.N) : (ms2 t).IsWhole := hstage0_2 ((cfg0.slots t 2).cast nbuf0_2)
/-- The scratch block: a whole scoped buffer of the kernel's own. -/
abbrev scM : Memref sig .tc .vmem S8x256 .f32 := Memref.whole cc0_scratch0
/-- The scratch and one output staging buffer as views, through which contents are stated. -/
abbrev VS : View sig .tc .vmem S8x256 .f32 := (scM : Memref sig .tc .vmem S8x256 .f32).view
abbrev VO : View sig .tc .vmem S8x256 .f32 := (Memref.whole cc0_stg2_0 : Memref sig .tc .vmem S8x256 .f32).view

end Cert.KernelIdeal.Nearest0

end
-- ==== Proof.KI.Run0A.lean ====
/-
  The body of the nearest-point kernel (pallas_call 0) at a point with j = 0: the scratch is reset to +∞ and then
  replaced by the minimum of +∞ and this tile's least distance. From the two input blocks and the output block at
  their contents and the scratch at anything, the body runs to the end leaving the three blocks as they were and
  the scratch written with the stores the run finds.
-/
import proofs.«172201_j74955769249969_1_alg».proof.Proof.KI.Conds0

set_option maxRecDepth 16384

noncomputable section

namespace Cert.KernelIdeal.Nearest0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case A (j = 0): the reset, then the update from +∞. The scratch may hold anything before; the output block is not touched. -/
noncomputable def runA (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) :
    { LS : List (View.Piece (Elt F) S8x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LS)) -∗ K ⟨⟩))
          ⊢ wp frame (wpE (defs₀ (F := F)) Variants.none c none) E (cc0__colmin_kernel i arg2 harg2 arg3 harg3 arg4 harg4 arg5 harg5) K } := by
  refine ⟨?_, fun E K => ?run⟩
  case run =>
    simp only [cc0__colmin_kernel_eq_skeleton]; unfold cc0__colmin_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

end Cert.KernelIdeal.Nearest0

end
-- ==== Proof.KI.Run0B.lean ====
/-
  The body of the nearest-point kernel (pallas_call 0) at a point with 0 < j < 15: the scratch, held at given
  contents, is replaced by the minimum of those and this tile's least distance; the output block is left as it was.
-/
import proofs.«172201_j74955769249969_1_alg».proof.Proof.KI.Conds0

set_option maxRecDepth 16384

noncomputable section

namespace Cert.KernelIdeal.Nearest0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case B (0 < j < 15): the update from what the scratch held; the output block is not touched. -/
noncomputable def runB (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) :
    { LS : List (View.Piece (Elt F) S8x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LS)) -∗ K ⟨⟩))
          ⊢ wp frame (wpE (defs₀ (F := F)) Variants.none c none) E (cc0__colmin_kernel i arg2 harg2 arg3 harg3 arg4 harg4 arg5 harg5) K } := by
  refine ⟨?_, fun E K => ?run⟩
  case run =>
    simp only [cc0__colmin_kernel_eq_skeleton]; unfold cc0__colmin_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

end Cert.KernelIdeal.Nearest0

end
-- ==== Proof.KI.Run0C.lean ====
/-
  The body of the nearest-point kernel (pallas_call 0) at a point with j = 15: the scratch is updated as at
  every point and then copied into the output block.
-/
import proofs.«172201_j74955769249969_1_alg».proof.Proof.KI.Conds0

set_option maxRecDepth 16384

noncomputable section

namespace Cert.KernelIdeal.Nearest0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case C (j = 15): the update from what the scratch held, then the scratch copied into the output block. -/
noncomputable def runC (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    Σ' (L2 : List (View.Piece (Elt F) S8x256 .f32)), { LS : List (View.Piece (Elt F) S8x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__colmin_kernel i arg2 harg2 arg3 harg3 arg4 harg4 arg5 harg5) K } := by
  refine ⟨?_, ?_, fun E K => ?run⟩
  case run =>
    simp only [cc0__colmin_kernel_eq_skeleton]; unfold cc0__colmin_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Nearest0

end
-- ==== Proof.KI.Body0.lean ====
/-
  The nearest-point kernel (pallas_call 0) point by point.

  Point t = 16 i + j works on row tile i of the first cloud and column tile j of the second. Write x_t, y_t for
  the two input blocks at point t. The scratch block after point t holds
      acc t = update x_t y_t (if j = 0 then +∞ else acc (t − 1)),
  where update is the body's payload `k0_pay2` (the minimum of what the scratch held and this tile's least
  distances). The output's staging block is stored only at j = 15, with acc t. Between points the invariant
  keeps the scratch at acc of the point before, beside whatever turns "the scratch at anything" back into the
  region's own rest (the other scoped buffers and the generator register), which the body never looks at.
-/
import proofs.«172201_j74955769249969_1_alg».proof.Proof.KI.Run0A
import proofs.«172201_j74955769249969_1_alg».proof.Proof.KI.Run0B
import proofs.«172201_j74955769249969_1_alg».proof.Proof.KI.Run0C
import Idealize.ShloMosaic.Lib.Pipeline.Frame
import Idealize.ShloMosaic.Lib.Pipeline.Value

set_option maxRecDepth 16384

noncomputable section

namespace Cert.KernelIdeal.Nearest0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the runs' stores leave, as payloads -/

theorem hz2 : (![0, 0] : Fin 2 → ℕ) = fun _ => 0 := by funext a; fin_cases a <;> rfl
theorem hz3 : (![0, 0, 0] : Fin 3 → ℕ) = fun _ => 0 := by funext a; fin_cases a <;> rfl

/-- Case A's stores into the scratch (the reset, then the update) cover it, -/
theorem coverS_A (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) (y : S8x256.Idx) :
    ∃ pc ∈ (runA c i arg2 harg2 arg3 harg3 arg4 harg4 arg5 harg5 hc0 hc1 x0 x1 x2).1, y ∈ pc.1.set :=
  View.cover_of_tiledL (runA c i arg2 harg2 arg3 harg3 arg4 harg4 arg5 harg5 hc0 hc1 x0 x1 x2).1 S8x256.size (by sl_kernel_rfl) y
/-- and leave the update of +∞ by the two blocks. -/
theorem canonS_A (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) :
    View.canon (runA c i arg2 harg2 arg3 harg3 arg4 harg4 arg5 harg5 hc0 hc1 x0 x1 x2).1 = k0_pay2 x0 x1 k0_pay1 := by
  unfold runA; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-- Case B's one store into the scratch covers it, -/
theorem coverS_B (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) (y : S8x256.Idx) :
    ∃ pc ∈ (runB c i arg2 harg2 arg3 harg3 arg4 harg4 arg5 harg5 hc0 hc1 x0 x1 x2 xs).1, y ∈ pc.1.set :=
  View.cover_of_tiledL (runB c i arg2 harg2 arg3 harg3 arg4 harg4 arg5 harg5 hc0 hc1 x0 x1 x2 xs).1 S8x256.size (by sl_kernel_rfl) y
/-- and leaves the update of what the scratch held. -/
theorem canonS_B (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) :
    View.canon (runB c i arg2 harg2 arg3 harg3 arg4 harg4 arg5 harg5 hc0 hc1 x0 x1 x2 xs).1 = k0_pay2 x0 x1 xs := by
  unfold runB; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-- Case C's store into the scratch covers it -/
theorem coverS_C (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) (y : S8x256.Idx) :
    ∃ pc ∈ (runC c i arg2 harg2 arg3 harg3 arg4 harg4 arg5 harg5 hc0 hc1 x0 x1 xs).2.1, y ∈ pc.1.set :=
  View.cover_of_tiledL (runC c i arg2 harg2 arg3 harg3 arg4 harg4 arg5 harg5 hc0 hc1 x0 x1 xs).2.1 S8x256.size (by sl_kernel_rfl) y
/-- and leaves the update of what the scratch held; -/
theorem canonS_C (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    View.canon (runC c i arg2 harg2 arg3 harg3 arg4 harg4 arg5 harg5 hc0 hc1 x0 x1 xs).2.1 = k0_pay2 x0 x1 xs := by
  unfold runC; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]
/-- its store into the output block covers it -/
theorem coverO_C (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) (y : S8x256.Idx) :
    ∃ pc ∈ (runC c i arg2 harg2 arg3 harg3 arg4 harg4 arg5 harg5 hc0 hc1 x0 x1 xs).1, y ∈ pc.1.set :=
  View.cover_of_tiledL (runC c i arg2 harg2 arg3 harg3 arg4 harg4 arg5 harg5 hc0 hc1 x0 x1 xs).1 S8x256.size (by sl_kernel_rfl) y
/-- and leaves the same: the scratch read back after its update. -/
theorem canonO_C (c : Dev nD) (i : grid0.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    View.canon (runC c i arg2 harg2 arg3 harg3 arg4 harg4 arg5 harg5 hc0 hc1 x0 x1 xs).1 = k0_pay2 x0 x1 xs := by
  unfold runC; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-! ## The blocks and the accumulator -/

-- the contents of the core's unscoped buffers when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch holds after point `n`: the update of +∞ at the first column tile of a row, of the point
    before otherwise. -/
def accAt (c : Dev nD) : (n : ℕ) → n < cfg0.N → Vec F S8x256 .f32
  | 0, hn => k0_pay2 (iblk V c 0 ⟨0, hn⟩) (iblk V c 1 ⟨0, hn⟩) k0_pay1
  | n + 1, hn => k0_pay2 (iblk V c 0 ⟨n + 1, hn⟩) (iblk V c 1 ⟨n + 1, hn⟩)
      (if (n + 1) % 16 = 0 then k0_pay1 else accAt c n (Nat.lt_of_succ_lt hn))

theorem accAt_first (c : Dev nD) (t : Fin cfg0.N) (h : t.val % 16 = 0) :
    accAt V c t.val t.isLt = k0_pay2 (iblk V c 0 t) (iblk V c 1 t) k0_pay1 := by
  obtain ⟨n, hn⟩ := t
  cases n with
  | zero => rfl
  | succ n => exact congrArg _ (if_pos h)

theorem accAt_next (c : Dev nD) (t : Fin cfg0.N) (h : ¬t.val % 16 = 0) :
    accAt V c t.val t.isLt = k0_pay2 (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- Before the first point: the region's rest as the launch hands it. Before a later point: the scratch at what
    the point before left, and what gives the rest back once the scratch is returned at anything. -/
def Phi (c : Dev nD) : (n : ℕ) → n ≤ cfg0.N → sProp 𝕄
  | 0, _ => Pipeline.ΦA spec0 c
  | n + 1, hn => iprop(owns (c : Thread nD τ) scM fullShare (accAt V c n hn)
      ∗ ((∃ d, owns (c : Thread nD τ) scM fullShare d) -∗ Pipeline.ΦA spec0 c))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(owns (c : Thread nD τ) scM fullShare (accAt V c n hn)
      ∗ ((∃ d, owns (c : Thread nD τ) scM fullShare d) -∗ Pipeline.ΦA spec0 c)) := rfl

theorem Phi_pos (c : Dev nD) (n : ℕ) (h : n ≤ cfg0.N) (hz : n ≠ 0) :
    Phi V c n h = iprop(owns (c : Thread nD τ) scM fullShare (accAt V c (n - 1) (by omega))
      ∗ ((∃ d, owns (c : Thread nD τ) scM fullShare d) -∗ Pipeline.ΦA spec0 c)) := by
  cases n with
  | zero => exact absurd rfl hz
  | succ n => rfl

/-- The region's rest holds the scratch at something, and takes it back at anything. -/
theorem PhiA_split (c : Dev nD) :
    (Pipeline.ΦA spec0 c : sProp 𝕄) ⊢ iprop((∃ d, owns (c : Thread nD τ) scM fullShare d)
      ∗ ((∃ d, owns (c : Thread nD τ) scM fullShare d) -∗ Pipeline.ΦA spec0 c)) := by
  unfold Pipeline.ΦA; rw [scopedRest0_eq]
  iintro ⟨⟨⟨%f, HS⟩, HR⟩, Hg⟩
  isplitl [HS]
  · iexists f; rw [owns_whole]; iexact HS
  iintro ⟨%d, HS⟩
  isplitl [HS HR]
  · isplitl [HS]
    · iexists d; rw [← owns_whole]; iexact HS
    iexact HR
  iexact Hg

/-! ## The proof data -/

/-- Core `c`'s proof data for this region: the arrays as the region finds them; after the body at point `t` each
    input's staging block at its block and the output's at the accumulator; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => accAt V c t.val t.isLt
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = accAt V c t.val t.isLt := by dsimp only [dat]

/-- Each input's current staging block holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4800000 in
/-- The body at any point: the inputs' memrefs hold their blocks; the closed forms of the two conditions say
    which case the point is in; the invariant hands over the scratch (at anything at j = 0, at the point
    before's accumulator otherwise) and takes it back at this point's accumulator; at j = 15 the output block
    is left at the accumulator, elsewhere as it was found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi V c (t.val + 1) t.isLt from rfl, Phi_succ]
  have hN : t.val < 256 := lt_of_lt_of_eq t.isLt (show cfg0.N = 256 from N_0)
  rw [show (dat V c).leavesExact 0 t = owns (c : Thread nD τ) (ms0 t) fullShare ((dat V c).after 0 t) from by
    unfold Dat.leavesExact; rw [live_in0 t], after_0]
  rw [show (dat V c).leavesExact 1 t = owns (c : Thread nD τ) (ms1 t) fullShare ((dat V c).after 1 t) from by
    unfold Dat.leavesExact; rw [live_in1 t], after_1]
  by_cases h0 : t.val % 16 = 0
  · have h1 : ¬t.val % 16 = 15 := by omega
    rw [Dat.leavesExact_idle (dat V c) 2 t (idle_out t (fun h => h1 ((isLast_iff t).mp h))) (noFlush_out t (fun h => h1 ((isLast_iff t).mp h)))]
    rw [accAt_first V c t h0]
    have hscr : (dat V c).Φ t.castSucc ⊢ (iprop((∃ d, owns (c : Thread nD τ) scM fullShare d)
        ∗ ((∃ d, owns (c : Thread nD τ) scM fullShare d) -∗ Pipeline.ΦA spec0 c)) : sProp 𝕄) := by
      rw [Phi_castSucc V c t]
      by_cases hz : t.val = 0
      · rw [Phi_zero V c _ _ hz]; exact PhiA_split c
      · rw [Phi_pos V c _ _ hz]
        iintro ⟨HS, HW⟩
        isplitl [HS]; · iexists _; iexact HS
        iexact HW
    iintro ⟨HΦ, Ho, ⟨%d0, H0⟩, ⟨%d1, H1⟩, ⟨%d2, H2⟩⟩
    ihave HΦ' := hscr $$ HΦ
    icases HΦ' with ⟨HS, HW⟩
    iapply ((runA c (grid0.coords t) _ _ _ _ _ _ _ _ ((isFirst_iff t).mpr h0) (fun h => h1 ((isLast_iff t).mp h)) (iblk V c 0 t) (iblk V c 1 t) _).2 Set.univ _)
    isplitl [H0]; · iexact H0
    isplitl [H1]; · iexact H1
    isplitl [H2]; · iexact H2
    isplitl [HS]; · iexact HS
    iintro ⟨H0, H1, H2, ⟨%es, HS⟩⟩
    isplitl [HS HW]
    · isplitl [HS]
      · unfold owns; iexists _; isplitr
        swap; · iexact HS
        ipureintro; exact (View.read_writes_eq_canon _ _ _ (coverS_A c _ _ _ _ _ _ _ _ _ _ _ _ _ _)).trans (canonS_A c _ _ _ _ _ _ _ _ _ _ _ _ _ _)
      iexact HW
    isplitl [Ho]; · iexact Ho
    isplitl [H0]; · iexact H0
    isplitl [H1]; · iexact H1
    iexists _; iexact H2
  · have hz : t.val ≠ 0 := fun h => h0 (by rw [h])
    rw [accAt_next V c t h0]
    by_cases h1 : t.val % 16 = 15
    · rw [show (dat V c).leavesExact 2 t = owns (c : Thread nD τ) (ms2 t) fullShare ((dat V c).after 2 t) from by
        unfold Dat.leavesExact; rw [live_out t ((isLast_iff t).mpr h1)], after_2, accAt_next V c t h0]
      rw [Phi_castSucc V c t, Phi_pos V c _ _ hz]
      iintro ⟨⟨HS, HW⟩, Ho, ⟨%d0, H0⟩, ⟨%d1, H1⟩, ⟨%d2, H2⟩⟩
      iapply ((runC c (grid0.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HW]
      · isplitl [HS]
        · unfold owns; iexists _; isplitr
          swap; · iexact HS
          ipureintro; exact (View.read_writes_eq_canon _ _ _ (coverS_C c _ _ _ _ _ _ _ _ _ _ _ _ _ _)).trans (canonS_C c _ _ _ _ _ _ _ _ _ _ _ _ _ _)
        iexact HW
      isplitl [Ho]; · iexact Ho
      isplitl [H0]; · iexact H0
      isplitl [H1]; · iexact H1
      unfold owns; iexists _; isplitr
      swap; · iexact H2
      ipureintro; exact (View.read_writes_eq_canon _ _ _ (coverO_C c _ _ _ _ _ _ _ _ _ _ _ _ _ _)).trans (canonO_C c _ _ _ _ _ _ _ _ _ _ _ _ _ _)
    · rw [Dat.leavesExact_idle (dat V c) 2 t (idle_out t (fun h => h1 ((isLast_iff t).mp h))) (noFlush_out t (fun h => h1 ((isLast_iff t).mp h)))]
      rw [Phi_castSucc V c t, Phi_pos V c _ _ hz]
      iintro ⟨⟨HS, HW⟩, Ho, ⟨%d0, H0⟩, ⟨%d1, H1⟩, ⟨%d2, H2⟩⟩
      iapply ((runB c (grid0.coords t) _ _ _ _ _ _ _ _ (fun h => h0 ((isFirst_iff t).mp h)) (fun h => h1 ((isLast_iff t).mp h)) (iblk V c 0 t) (iblk V c 1 t) _ _).2 Set.univ _)
      isplitl [H0]; · iexact H0
      isplitl [H1]; · iexact H1
      isplitl [H2]; · iexact H2
      isplitl [HS]; · iexact HS
      iintro ⟨H0, H1, H2, ⟨%es, HS⟩⟩
      isplitl [HS HW]
      · isplitl [HS]
        · unfold owns; iexists _; isplitr
          swap; · iexact HS
          ipureintro; exact (View.read_writes_eq_canon _ _ _ (coverS_B c _ _ _ _ _ _ _ _ _ _ _ _ _ _ _)).trans (canonS_B c _ _ _ _ _ _ _ _ _ _ _ _ _ _ _)
        iexact HW
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Phi V c 0 (Nat.zero_le _) from rfl, Phi_zero V c 0 _ rfl]

/-- After the last point the invariant gives the region's rest back: the scratch's contents are forgotten. -/
theorem hout (c : Dev nD) : (dat V c).Φ (Fin.last cfg0.N) ⊢ Pipeline.ΦA spec0 c := by
  have hne : (Fin.last cfg0.N).val ≠ 0 := by rw [Fin.val_last]; have : cfg0.N = 256 := N_0; omega
  rw [show (dat V c).Φ (Fin.last cfg0.N) = Phi V c (Fin.last cfg0.N).val (Nat.le_of_lt_succ (Fin.last cfg0.N).isLt) from rfl,
    Phi_pos V c _ _ hne]
  iintro ⟨HS, HW⟩
  iapply HW
  iexists _; iexact HS

end Cert.KernelIdeal.Nearest0

end
-- ==== Proof.KI.Conds1.lean ====
/-
  The nearest-point kernel (pallas_call 1): its two branch conditions decided over the 16 × 16 grid (point number
  t = 16 i + j: "first column tile" is j = 0, "last column tile" is j = 15), where its windows are idle, and the
  memrefs its body is called with.
-/
import proofs.«172201_j74955769249969_1_alg».proof.Proof.Gen.KernelIdeal.Launch
import proofs.«172201_j74955769249969_1_alg».proof.Proof.Gen.KernelIdeal.Skeleton
import proofs.«172201_j74955769249969_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Nearest1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "this is the first column tile": the body's first conditional, from the grid coordinates. -/
abbrev isFirst (i : grid1.Coords) : Prop :=
  (Scalar.cmpi .ne (Scalar.extui (Scalar.cmpi .eq (BitVec.ofNat 32 (i 1).val) 0#32)) 0#32) = 1#1
/-- It holds exactly at the points with j = 0. -/
theorem isFirst_iff : ∀ t : Fin cfg1.N, isFirst (grid1.coords t) ↔ t.val % 16 = 0 :=
  (by decide +kernel : ∀ t : Fin grid1.N, isFirst (grid1.coords t) ↔ t.val % 16 = 0)

/-- "this is the last column tile": the body's second conditional. -/
abbrev isLast (i : grid1.Coords) : Prop := k1_cond2 i = 1#1
/-- It holds exactly at the points with j = 15. -/
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live_in0 : ∀ t : Fin cfg1.N, cfg1.idle 0 (grid1.coords t) = false := by decide +kernel
theorem live_in1 : ∀ t : Fin cfg1.N, cfg1.idle 1 (grid1.coords t) = false := by decide +kernel
/-- Away from the last column tile the output block is not stored into, -/
theorem idle_out : ∀ t : Fin cfg1.N, ¬isLast (grid1.coords t) → cfg1.idle 2 (grid1.coords t) = true := by decide +kernel
/-- and not written back; -/
theorem noFlush_out : ∀ t : Fin cfg1.N, ¬isLast (grid1.coords t) → (cfg1.win 2).flush t = false := by decide +kernel
/-- at the last column tile it is stored into. -/
theorem live_out : ∀ t : Fin cfg1.N, isLast (grid1.coords t) → cfg1.idle 2 (grid1.coords t) = false := by decide +kernel

/-! ## The memrefs the body is called with -/

abbrev ms0 (t : Fin cfg1.N) : Memref sig .tc .vmem S8x256x3 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8x256x3 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S8x256 .f32 := win1_2.stage (cfg1.slots t 2)
abbrev hs2 (t : Fin cfg1.N) : (ms2 t).IsWhole := hstage1_2 ((cfg1.slots t 2).cast nbuf1_2)
/-- The scratch block: a whole scoped buffer of the kernel's own. -/
abbrev scM : Memref sig .tc .vmem S8x256 .f32 := Memref.whole cc1_scratch0
/-- The scratch and one output staging buffer as views, through which contents are stated. -/
abbrev VS : View sig .tc .vmem S8x256 .f32 := (scM : Memref sig .tc .vmem S8x256 .f32).view
abbrev VO : View sig .tc .vmem S8x256 .f32 := (Memref.whole cc1_stg2_0 : Memref sig .tc .vmem S8x256 .f32).view

end Cert.KernelIdeal.Nearest1

end
-- ==== Proof.KI.Run1A.lean ====
/-
  The body of the nearest-point kernel (pallas_call 1) at a point with j = 0: the scratch is reset to +∞ and then
  replaced by the minimum of +∞ and this tile's least distance. From the two input blocks and the output block at
  their contents and the scratch at anything, the body runs to the end leaving the three blocks as they were and
  the scratch written with the stores the run finds.
-/
import proofs.«172201_j74955769249969_1_alg».proof.Proof.KI.Conds1

set_option maxRecDepth 16384

noncomputable section

namespace Cert.KernelIdeal.Nearest1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case A (j = 0): the reset, then the update from +∞. The scratch may hold anything before; the output block is not touched. -/
noncomputable def runA (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) :
    { LS : List (View.Piece (Elt F) S8x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ (∃ d, owns (c : Thread nD τ) arg5 fullShare d)
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LS)) -∗ K ⟨⟩))
          ⊢ wp frame (wpE (defs₀ (F := F)) Variants.none c none) E (cc1__colmin_kernel i arg2 harg2 arg3 harg3 arg4 harg4 arg5 harg5) K } := by
  refine ⟨?_, fun E K => ?run⟩
  case run =>
    simp only [cc1__colmin_kernel_eq_skeleton]; unfold cc1__colmin_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

end Cert.KernelIdeal.Nearest1

end
-- ==== Proof.KI.Run1B.lean ====
/-
  The body of the nearest-point kernel (pallas_call 1) at a point with 0 < j < 15: the scratch, held at given
  contents, is replaced by the minimum of those and this tile's least distance; the output block is left as it was.
-/
import proofs.«172201_j74955769249969_1_alg».proof.Proof.KI.Conds1

set_option maxRecDepth 16384

noncomputable section

namespace Cert.KernelIdeal.Nearest1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case B (0 < j < 15): the update from what the scratch held; the output block is not touched. -/
noncomputable def runB (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) :
    { LS : List (View.Piece (Elt F) S8x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare xs
            ∗ (iprop(owns (c : Thread nD τ) arg2 fullShare x0 ∗ owns (c : Thread nD τ) arg3 fullShare x1
                ∗ owns (c : Thread nD τ) arg4 fullShare x2
                ∗ (∃ f, arg5.view.loc (c : Thread nD τ) ↦[arg5.view.set]{fullShare} arg5.view.writes (Elt F) f LS)) -∗ K ⟨⟩))
          ⊢ wp frame (wpE (defs₀ (F := F)) Variants.none c none) E (cc1__colmin_kernel i arg2 harg2 arg3 harg3 arg4 harg4 arg5 harg5) K } := by
  refine ⟨?_, fun E K => ?run⟩
  case run =>
    simp only [cc1__colmin_kernel_eq_skeleton]; unfold cc1__colmin_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

end Cert.KernelIdeal.Nearest1

end
-- ==== Proof.KI.Run1C.lean ====
/-
  The body of the nearest-point kernel (pallas_call 1) at a point with j = 15: the scratch is updated as at
  every point and then copied into the output block.
-/
import proofs.«172201_j74955769249969_1_alg».proof.Proof.KI.Conds1

set_option maxRecDepth 16384

noncomputable section

namespace Cert.KernelIdeal.Nearest1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 0 in
/-- Case C (j = 15): the update from what the scratch held, then the scratch copied into the output block. -/
noncomputable def runC (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    Σ' (L2 : List (View.Piece (Elt F) S8x256 .f32)), { LS : List (View.Piece (Elt F) S8x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__colmin_kernel i arg2 harg2 arg3 harg3 arg4 harg4 arg5 harg5) K } := by
  refine ⟨?_, ?_, fun E K => ?run⟩
  case run =>
    simp only [cc1__colmin_kernel_eq_skeleton]; unfold cc1__colmin_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Nearest1

end
-- ==== Proof.KI.Body1.lean ====
/-
  The nearest-point kernel (pallas_call 1) point by point.

  Point t = 16 i + j works on row tile i of the first cloud and column tile j of the second. Write x_t, y_t for
  the two input blocks at point t. The scratch block after point t holds
      acc t = update x_t y_t (if j = 0 then +∞ else acc (t − 1)),
  where update is the body's payload `k1_pay2` (the minimum of what the scratch held and this tile's least
  distances). The output's staging block is stored only at j = 15, with acc t. Between points the invariant
  keeps the scratch at acc of the point before, beside whatever turns "the scratch at anything" back into the
  region's own rest (the other scoped buffers and the generator register), which the body never looks at.
-/
import proofs.«172201_j74955769249969_1_alg».proof.Proof.KI.Run1A
import proofs.«172201_j74955769249969_1_alg».proof.Proof.KI.Run1B
import proofs.«172201_j74955769249969_1_alg».proof.Proof.KI.Run1C
import Idealize.ShloMosaic.Lib.Pipeline.Frame
import Idealize.ShloMosaic.Lib.Pipeline.Value

set_option maxRecDepth 16384

noncomputable section

namespace Cert.KernelIdeal.Nearest1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the runs' stores leave, as payloads -/

theorem hz2 : (![0, 0] : Fin 2 → ℕ) = fun _ => 0 := by funext a; fin_cases a <;> rfl
theorem hz3 : (![0, 0, 0] : Fin 3 → ℕ) = fun _ => 0 := by funext a; fin_cases a <;> rfl

/-- Case A's stores into the scratch (the reset, then the update) cover it, -/
theorem coverS_A (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) (y : S8x256.Idx) :
    ∃ pc ∈ (runA c i arg2 harg2 arg3 harg3 arg4 harg4 arg5 harg5 hc0 hc1 x0 x1 x2).1, y ∈ pc.1.set :=
  View.cover_of_tiledL (runA c i arg2 harg2 arg3 harg3 arg4 harg4 arg5 harg5 hc0 hc1 x0 x1 x2).1 S8x256.size (by sl_kernel_rfl) y
/-- and leave the update of +∞ by the two blocks. -/
theorem canonS_A (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : isFirst i) (hc1 : ¬isLast i)
    (x0 : Vec F S8x256x3 .f32) (x1 : Vec F S8x256x3 .f32) (x2 : Vec F S8x256 .f32) :
    View.canon (runA c i arg2 harg2 arg3 harg3 arg4 harg4 arg5 harg5 hc0 hc1 x0 x1 x2).1 = k1_pay2 x0 x1 k1_pay1 := by
  unfold runA; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-- Case B's one store into the scratch covers it, -/
theorem coverS_B (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) (y : S8x256.Idx) :
    ∃ pc ∈ (runB c i arg2 harg2 arg3 harg3 arg4 harg4 arg5 harg5 hc0 hc1 x0 x1 x2 xs).1, y ∈ pc.1.set :=
  View.cover_of_tiledL (runB c i arg2 harg2 arg3 harg3 arg4 harg4 arg5 harg5 hc0 hc1 x0 x1 x2 xs).1 S8x256.size (by sl_kernel_rfl) y
/-- and leaves the update of what the scratch held. -/
theorem canonS_B (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : ¬isLast i)
    (x0 : Vec F S8x256x3 .f32) (x1 : Vec F S8x256x3 .f32) (x2 : Vec F S8x256 .f32) (xs : Vec F S8x256 .f32) :
    View.canon (runB c i arg2 harg2 arg3 harg3 arg4 harg4 arg5 harg5 hc0 hc1 x0 x1 x2 xs).1 = k1_pay2 x0 x1 xs := by
  unfold runB; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-- Case C's store into the scratch covers it -/
theorem coverS_C (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) (y : S8x256.Idx) :
    ∃ pc ∈ (runC c i arg2 harg2 arg3 harg3 arg4 harg4 arg5 harg5 hc0 hc1 x0 x1 xs).2.1, y ∈ pc.1.set :=
  View.cover_of_tiledL (runC c i arg2 harg2 arg3 harg3 arg4 harg4 arg5 harg5 hc0 hc1 x0 x1 xs).2.1 S8x256.size (by sl_kernel_rfl) y
/-- and leaves the update of what the scratch held; -/
theorem canonS_C (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    View.canon (runC c i arg2 harg2 arg3 harg3 arg4 harg4 arg5 harg5 hc0 hc1 x0 x1 xs).2.1 = k1_pay2 x0 x1 xs := by
  unfold runC; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]
/-- its store into the output block covers it -/
theorem coverO_C (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) (y : S8x256.Idx) :
    ∃ pc ∈ (runC c i arg2 harg2 arg3 harg3 arg4 harg4 arg5 harg5 hc0 hc1 x0 x1 xs).1, y ∈ pc.1.set :=
  View.cover_of_tiledL (runC c i arg2 harg2 arg3 harg3 arg4 harg4 arg5 harg5 hc0 hc1 x0 x1 xs).1 S8x256.size (by sl_kernel_rfl) y
/-- and leaves the same: the scratch read back after its update. -/
theorem canonO_C (c : Dev nD) (i : grid1.Coords) (arg2 : Memref sig .tc .vmem S8x256x3 .f32) (harg2 : arg2.IsWhole)
    (arg3 : Memref sig .tc .vmem S8x256x3 .f32) (harg3 : arg3.IsWhole) (arg4 : Memref sig .tc .vmem S8x256 .f32) (harg4 : arg4.IsWhole)
    (arg5 : Memref sig .tc .vmem S8x256 .f32) (harg5 : arg5.IsWhole) (hc0 : ¬isFirst i) (hc1 : isLast i)
    (x0 : Vec F S8x256x3 .f32) (x1 : Vec F S8x256x3 .f32) (xs : Vec F S8x256 .f32) :
    View.canon (runC c i arg2 harg2 arg3 harg3 arg4 harg4 arg5 harg5 hc0 hc1 x0 x1 xs).1 = k1_pay2 x0 x1 xs := by
  unfold runC; dsimp only; sl_unfold_words
  simp only [View.canon_cons_unit_zero (S := S8x256) hz2, View.canon_unit_zero (S := S8x256) hz2, View.readCov_unit_zero (S := S8x256) _ hz2, View.readAt_eq_ld,
    harg2.read_unread, harg3.read_unread, harg5.read_unread, View.ld_unit_zero (S := S8x256x3) hz3, View.ld_unit_zero (S := S8x256) hz2]

/-! ## The blocks and the accumulator -/

-- the contents of the core's unscoped buffers when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch holds after point `n`: the update of +∞ at the first column tile of a row, of the point
    before otherwise. -/
def accAt (c : Dev nD) : (n : ℕ) → n < cfg1.N → Vec F S8x256 .f32
  | 0, hn => k1_pay2 (iblk V c 0 ⟨0, hn⟩) (iblk V c 1 ⟨0, hn⟩) k1_pay1
  | n + 1, hn => k1_pay2 (iblk V c 0 ⟨n + 1, hn⟩) (iblk V c 1 ⟨n + 1, hn⟩)
      (if (n + 1) % 16 = 0 then k1_pay1 else accAt c n (Nat.lt_of_succ_lt hn))

theorem accAt_first (c : Dev nD) (t : Fin cfg1.N) (h : t.val % 16 = 0) :
    accAt V c t.val t.isLt = k1_pay2 (iblk V c 0 t) (iblk V c 1 t) k1_pay1 := by
  obtain ⟨n, hn⟩ := t
  cases n with
  | zero => rfl
  | succ n => exact congrArg _ (if_pos h)

theorem accAt_next (c : Dev nD) (t : Fin cfg1.N) (h : ¬t.val % 16 = 0) :
    accAt V c t.val t.isLt = k1_pay2 (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- Before the first point: the region's rest as the launch hands it. Before a later point: the scratch at what
    the point before left, and what gives the rest back once the scratch is returned at anything. -/
def Phi (c : Dev nD) : (n : ℕ) → n ≤ cfg1.N → sProp 𝕄
  | 0, _ => Pipeline.ΦA spec1 c
  | n + 1, hn => iprop(owns (c : Thread nD τ) scM fullShare (accAt V c n hn)
      ∗ ((∃ d, owns (c : Thread nD τ) scM fullShare d) -∗ Pipeline.ΦA spec1 c))

theorem Phi_zero (c : Dev nD) (n : ℕ) (h : n ≤ cfg1.N) (hz : n = 0) : Phi V c n h = Pipeline.ΦA spec1 c := by
  subst hz; rfl

theorem Phi_succ (c : Dev nD) (n : ℕ) (hn : n < cfg1.N) :
    Phi V c (n + 1) hn = iprop(owns (c : Thread nD τ) scM fullShare (accAt V c n hn)
      ∗ ((∃ d, owns (c : Thread nD τ) scM fullShare d) -∗ Pipeline.ΦA spec1 c)) := rfl

theorem Phi_pos (c : Dev nD) (n : ℕ) (h : n ≤ cfg1.N) (hz : n ≠ 0) :
    Phi V c n h = iprop(owns (c : Thread nD τ) scM fullShare (accAt V c (n - 1) (by omega))
      ∗ ((∃ d, owns (c : Thread nD τ) scM fullShare d) -∗ Pipeline.ΦA spec1 c)) := by
  cases n with
  | zero => exact absurd rfl hz
  | succ n => rfl

/-- The region's rest holds the scratch at something, and takes it back at anything. -/
theorem PhiA_split (c : Dev nD) :
    (Pipeline.ΦA spec1 c : sProp 𝕄) ⊢ iprop((∃ d, owns (c : Thread nD τ) scM fullShare d)
      ∗ ((∃ d, owns (c : Thread nD τ) scM fullShare d) -∗ Pipeline.ΦA spec1 c)) := by
  unfold Pipeline.ΦA; rw [scopedRest1_eq]
  iintro ⟨⟨H1, H2, H3, H4, H5, H6, H7, ⟨%f, HS⟩⟩, Hg⟩
  isplitl [HS]
  · iexists f; rw [owns_whole]; iexact HS
  iintro ⟨%d, HS⟩
  isplitl [H1 H2 H3 H4 H5 H6 H7 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexists d; rw [← owns_whole]; iexact HS
  iexact Hg

/-! ## The proof data -/

/-- Core `c`'s proof data for this region: the arrays as the region finds them; after the body at point `t` each
    input's staging block at its block and the output's at the accumulator; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c t.val t.isLt
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = Phi V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = accAt V c t.val t.isLt := by dsimp only [dat]

/-- Each input's current staging block holds its block at every point, fetched there or not. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4800000 in
/-- The body at any point: the inputs' memrefs hold their blocks; the closed forms of the two conditions say
    which case the point is in; the invariant hands over the scratch (at anything at j = 0, at the point
    before's accumulator otherwise) and takes it back at this point's accumulator; at j = 15 the output block
    is left at the accumulator, elsewhere as it was found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Phi V c (t.val + 1) t.isLt from rfl, Phi_succ]
  have hN : t.val < 256 := lt_of_lt_of_eq t.isLt (show cfg1.N = 256 from N_1)
  rw [show (dat V c).leavesExact 0 t = owns (c : Thread nD τ) (ms0 t) fullShare ((dat V c).after 0 t) from by
    unfold Dat.leavesExact; rw [live_in0 t], after_0]
  rw [show (dat V c).leavesExact 1 t = owns (c : Thread nD τ) (ms1 t) fullShare ((dat V c).after 1 t) from by
    unfold Dat.leavesExact; rw [live_in1 t], after_1]
  by_cases h0 : t.val % 16 = 0
  · have h1 : ¬t.val % 16 = 15 := by omega
    rw [Dat.leavesExact_idle (dat V c) 2 t (idle_out t (fun h => h1 ((isLast_iff t).mp h))) (noFlush_out t (fun h => h1 ((isLast_iff t).mp h)))]
    rw [accAt_first V c t h0]
    have hscr : (dat V c).Φ t.castSucc ⊢ (iprop((∃ d, owns (c : Thread nD τ) scM fullShare d)
        ∗ ((∃ d, owns (c : Thread nD τ) scM fullShare d) -∗ Pipeline.ΦA spec1 c)) : sProp 𝕄) := by
      rw [Phi_castSucc V c t]
      by_cases hz : t.val = 0
      · rw [Phi_zero V c _ _ hz]; exact PhiA_split c
      · rw [Phi_pos V c _ _ hz]
        iintro ⟨HS, HW⟩
        isplitl [HS]; · iexists _; iexact HS
        iexact HW
    iintro ⟨HΦ, Ho, ⟨%d0, H0⟩, ⟨%d1, H1⟩, ⟨%d2, H2⟩⟩
    ihave HΦ' := hscr $$ HΦ
    icases HΦ' with ⟨HS, HW⟩
    iapply ((runA c (grid1.coords t) _ _ _ _ _ _ _ _ ((isFirst_iff t).mpr h0) (fun h => h1 ((isLast_iff t).mp h)) (iblk V c 0 t) (iblk V c 1 t) _).2 Set.univ _)
    isplitl [H0]; · iexact H0
    isplitl [H1]; · iexact H1
    isplitl [H2]; · iexact H2
    isplitl [HS]; · iexact HS
    iintro ⟨H0, H1, H2, ⟨%es, HS⟩⟩
    isplitl [HS HW]
    · isplitl [HS]
      · unfold owns; iexists _; isplitr
        swap; · iexact HS
        ipureintro; exact (View.read_writes_eq_canon _ _ _ (coverS_A c _ _ _ _ _ _ _ _ _ _ _ _ _ _)).trans (canonS_A c _ _ _ _ _ _ _ _ _ _ _ _ _ _)
      iexact HW
    isplitl [Ho]; · iexact Ho
    isplitl [H0]; · iexact H0
    isplitl [H1]; · iexact H1
    iexists _; iexact H2
  · have hz : t.val ≠ 0 := fun h => h0 (by rw [h])
    rw [accAt_next V c t h0]
    by_cases h1 : t.val % 16 = 15
    · rw [show (dat V c).leavesExact 2 t = owns (c : Thread nD τ) (ms2 t) fullShare ((dat V c).after 2 t) from by
        unfold Dat.leavesExact; rw [live_out t ((isLast_iff t).mpr h1)], after_2, accAt_next V c t h0]
      rw [Phi_castSucc V c t, Phi_pos V c _ _ hz]
      iintro ⟨⟨HS, HW⟩, Ho, ⟨%d0, H0⟩, ⟨%d1, H1⟩, ⟨%d2, H2⟩⟩
      iapply ((runC c (grid1.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HW]
      · isplitl [HS]
        · unfold owns; iexists _; isplitr
          swap; · iexact HS
          ipureintro; exact (View.read_writes_eq_canon _ _ _ (coverS_C c _ _ _ _ _ _ _ _ _ _ _ _ _ _)).trans (canonS_C c _ _ _ _ _ _ _ _ _ _ _ _ _ _)
        iexact HW
      isplitl [Ho]; · iexact Ho
      isplitl [H0]; · iexact H0
      isplitl [H1]; · iexact H1
      unfold owns; iexists _; isplitr
      swap; · iexact H2
      ipureintro; exact (View.read_writes_eq_canon _ _ _ (coverO_C c _ _ _ _ _ _ _ _ _ _ _ _ _ _)).trans (canonO_C c _ _ _ _ _ _ _ _ _ _ _ _ _ _)
    · rw [Dat.leavesExact_idle (dat V c) 2 t (idle_out t (fun h => h1 ((isLast_iff t).mp h))) (noFlush_out t (fun h => h1 ((isLast_iff t).mp h)))]
      rw [Phi_castSucc V c t, Phi_pos V c _ _ hz]
      iintro ⟨⟨HS, HW⟩, Ho, ⟨%d0, H0⟩, ⟨%d1, H1⟩, ⟨%d2, H2⟩⟩
      iapply ((runB c (grid1.coords t) _ _ _ _ _ _ _ _ (fun h => h0 ((isFirst_iff t).mp h)) (fun h => h1 ((isLast_iff t).mp h)) (iblk V c 0 t) (iblk V c 1 t) _ _).2 Set.univ _)
      isplitl [H0]; · iexact H0
      isplitl [H1]; · iexact H1
      isplitl [H2]; · iexact H2
      isplitl [HS]; · iexact HS
      iintro ⟨H0, H1, H2, ⟨%es, HS⟩⟩
      isplitl [HS HW]
      · isplitl [HS]
        · unfold owns; iexists _; isplitr
          swap; · iexact HS
          ipureintro; exact (View.read_writes_eq_canon _ _ _ (coverS_B c _ _ _ _ _ _ _ _ _ _ _ _ _ _ _)).trans (canonS_B c _ _ _ _ _ _ _ _ _ _ _ _ _ _ _)
        iexact HW
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Phi V c 0 (Nat.zero_le _) from rfl, Phi_zero V c 0 _ rfl]

/-- After the last point the invariant gives the region's rest back: the scratch's contents are forgotten. -/
theorem hout (c : Dev nD) : (dat V c).Φ (Fin.last cfg1.N) ⊢ Pipeline.ΦA spec1 c := by
  have hne : (Fin.last cfg1.N).val ≠ 0 := by rw [Fin.val_last]; have : cfg1.N = 256 := N_1; omega
  rw [show (dat V c).Φ (Fin.last cfg1.N) = Phi V c (Fin.last cfg1.N).val (Nat.le_of_lt_succ (Fin.last cfg1.N).isLt) from rfl,
    Phi_pos V c _ _ hne]
  iintro ⟨HS, HW⟩
  iapply HW
  iexists _; iexact HS

end Cert.KernelIdeal.Nearest1

end
-- ==== Proof.KI.Chain.lean ====
/-
  The whole program: the nearest-point kernel over (first cloud, second cloud), the same kernel over (second,
  first), then nine host operations (two means and their sum). Between two items every unscoped buffer of a core
  is held at a named valuation: `W0` the launch contents, `W1` after the first region (its output array at what
  the pipeline leaves in it), `W2` after the second, `W3` after the host operations. The run ends with every
  unscoped buffer at `W3`; the two arguments are never written, so they are read back unchanged.
-/
import proofs.«172201_j74955769249969_1_alg».proof.Proof.KI.Body0
import proofs.«172201_j74955769249969_1_alg».proof.Proof.KI.Body1
import proofs.«172201_j74955769249969_1_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between items -/

/-- At launch. -/
abbrev W0 (c : Dev nD) : Valuation τ sig (Elt F) := fun b => m (c, b)
abbrev V0 : (c : Dev nD) → (b : Ref sig .tc) → Buf (Elt F) ((c : Thread nD τ).loc b) := fun c b => W0 m c b
/-- After the first region: its arrays at what the pipeline leaves, the rest as before. -/
def W1 (c : Dev nD) : Valuation τ sig (Elt F) :=
  Pipeline.withArrays spec0 c (W0 m c) fun w => (Nearest0.dat (V0 m) c).arrAt w cfg0.N
theorem W1_arr (c : Dev nD) (w : Fin cfg0.W) :
    W1 m c (Proc.devRef .tc (Pipeline.arrRef spec0 w)) = (Nearest0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Nearest0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the second region. -/
def W2 (c : Dev nD) : Valuation τ sig (Elt F) :=
  Pipeline.withArrays spec1 c (W1 m c) fun w => (Nearest1.dat (V1 m) c).arrAt w cfg1.N
theorem W2_arr (c : Dev nD) (w : Fin cfg1.W) :
    W2 m c (Proc.devRef .tc (Pipeline.arrRef spec1 w)) = (Nearest1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Nearest1.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)
/-- After the host operations. -/
abbrev W3 (c : Dev nD) : Valuation τ sig (Elt F) := StableHlo.after hostOps2 (W2 m c)

/-! ## The arguments are never written -/

theorem W3_keeps (c : Dev nD) (r : Ref sig .tc) (h : r ∉ hostOps2_W) : W3 m c r = W2 m c r :=
  StableHlo.after_of_writes_sub hostOps2 _ hostOps2_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_keeps m c main_arg0 (by decide)
    _ = W1 m c (Proc.devRef .tc main_arg0) := (W2_arr m c 1).trans (((Nearest1.dat (V1 m) c).arrAt_in 1 rfl _).trans (Nearest1.A_eq (V1 m) c 1))
    _ = W0 m c (Proc.devRef .tc main_arg0) := (W1_arr m c 0).trans (((Nearest0.dat (V0 m) c).arrAt_in 0 rfl _).trans (Nearest0.A_eq (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_keeps m c main_arg1 (by decide)
    _ = W1 m c (Proc.devRef .tc main_arg1) := (W2_arr m c 0).trans (((Nearest1.dat (V1 m) c).arrAt_in 0 rfl _).trans (Nearest1.A_eq (V1 m) c 0))
    _ = W0 m c (Proc.devRef .tc main_arg1) := (W1_arr m c 1).trans (((Nearest0.dat (V0 m) c).arrAt_in 1 rfl _).trans (Nearest0.A_eq (V0 m) c 1))
    _ = m ((c : Thread nD τ).loc main_arg1) := rfl

/-! ## The proof data family and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Nearest0.dat (V0 m) c
  | ⟨1, _⟩ => fun c => Nearest1.dat (V1 m) c
abbrev 𝒱₀ : Variants := Variants.none
abbrev L : GSem nD τ sig → Finset Unit := fun _ => ∅
abbrev lv : GSem nD τ sig → Unit → ℕ := fun _ _ => 0
/-- The generator register at some state and the core owing nothing. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The items as segments -/

set_option backward.isDefEq.respectTransparency.types false in
/-- Region 0: entered with every unscoped buffer at `W0`, left with them at `W1`. Its three arrays are taken
    out of the unscoped buffers and put back at what the pipeline leaves in them; the generator register and the
    scoped rest go into the kernel's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Nearest0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P ∗ Pipeline.scopedRest (Ix := Unit) (Name := ℕ) (U := UR sig nD τ) (Lvl := ℕ) (Val := Elt F) spec0 c)
        ⊢ (Pipeline.ΦA spec0 c : sProp 𝕄) := fun P => by
      unfold Pipeline.ΦA
      iintro ⟨Hp, -, Hr⟩
      isplitl [Hr]; · iexact Hr
      iexact Hp
    exact (h _).trans (Nearest0.hin (V0 m) c)
  hout c := by
    rw [Pipeline.ownSems0_none]
    have h : (Pipeline.ΦA spec0 c : sProp 𝕄)
        ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (Nearest0.hout (V0 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W1`, left with them at `W2`. Its three arrays are taken
    out of the unscoped buffers and put back at what the pipeline leaves in them; the generator register and the
    scoped rest go into the kernel's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Nearest1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P ∗ Pipeline.scopedRest (Ix := Unit) (Name := ℕ) (U := UR sig nD τ) (Lvl := ℕ) (Val := Elt F) spec1 c)
        ⊢ (Pipeline.ΦA spec1 c : sProp 𝕄) := fun P => by
      unfold Pipeline.ΦA
      iintro ⟨Hp, -, Hr⟩
      isplitl [Hr]; · iexact Hr
      iexact Hp
    exact (h _).trans (Nearest1.hin (V1 m) c)
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (Nearest1.hout (V1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The host operations as a segment over the unscoped buffers from `W2`. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

abbrev segs : List (Pipeline.Seg (pcfgs (F := F)) adm (pdats m) () defs₀ 𝒱₀ L lv) :=
  [ .region (reg0 m), .region (reg1 m), .host (hostSeg m) ]

theorem main_run (c : Dev nD) : main (F := F) c = Pipeline.Seg.run (segs m) := (main_chain c).trans (by chain_rfl)

set_option backward.isDefEq.respectTransparency.types false in
/-- From any memory with zero counters every weakly fair execution of the program terminates, nothing faulting,
    with every unscoped buffer of every core at `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ (iprop(Tₙ m c ∗ ∃ W, owes (c : Thread nD τ) (0 : CellTallies nD τ sig Unit) W) : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

end Cert.KernelIdeal.Chain

end
-- ==== Proof.KI.Payload.lean ====
/-
  The kernel body's two payloads, read at one element of the extended reals.

  A grid step holds a block of 256 points of each cloud, x0 and x1, and a field s over the points of x0. The first
  payload is +∞ everywhere: the value the running minimum starts from. The second payload is, at batch b and point p,
      min (s (b, p)) (the least over the 256 points q of x1 of (|x0_p|² + |x1_q|²) − 2 · ⟨x0_p, x1_q⟩):
  the squared norms are sums over the three coordinates, given a unit axis and repeated along it so that (b, p, q)
  reads |x0_p|² and |x1_q|²; the change of format before the product is the identity on the extended reals; the
  product into the zero accumulator is the inner product over the three coordinates; and the lane minimum is a fold
  of `min` from +∞ over q. Both pallas calls have the same two payloads.
-/
import proofs.«172201_j74955769249969_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.NearestPay

open Cert.KernelIdeal Cert.KernelIdeal.Gen Idealize.ShloMosaic Idealize.ShloMosaic.ValueIdx

/-- The least squared distance from point p of the first block to the 256 points of the second, in batch b. -/
def tileMin (x0 x1 : Vec Ideal S8x256x3 .f32) (b : Fin 8) (p : Fin 256) : EReal :=
  (Finset.univ : Finset (Fin 256)).fold min (Ideal.ofBits .f32 0x7F800000#32) (fun q =>
    ((∑ d : Fin 3, x0 (ix3 b p d) * x0 (ix3 b p d)) + (∑ d : Fin 3, x1 (ix3 b q d) * x1 (ix3 b q d)))
      - Ideal.ofBits .f32 0x40000000#32 * (∑ d : Fin 3, x0 (ix3 b p d) * x1 (ix3 b q d)))

/-- The first payload is +∞ everywhere. -/
theorem pay1_apply0 (b : Fin 8) (p : Fin 256) : k0_pay1 (F := Ideal) (ix2 b p) = Ideal.ofBits .f32 0x7F800000#32 := by
  unfold k0_pay1
  exact congrFun (shapeCast_self _ _) (ix2 b p)

theorem pay1_apply1 (b : Fin 8) (p : Fin 256) : k1_pay1 (F := Ideal) (ix2 b p) = Ideal.ofBits .f32 0x7F800000#32 := by
  unfold k1_pay1
  exact congrFun (shapeCast_self _ _) (ix2 b p)

/-! ### The operations that are not pointwise, one at a time -/

/-- Over the last axis of a block, the source index above `(b, p)` with coordinate `d` inserted is `(b, p, d)`. -/
theorem lift_lane3 (h : S8x256x3.Reduces [2] S8x256) (b : Fin 8) (p : Fin 256) (d : Fin 3) :
    h.lift (ix2 b p) d = (ix3 b p d : S8x256x3.Idx) :=
  funext fun c => Fin.ext (by match c with | ⟨0, _⟩ => rfl | ⟨1, _⟩ => rfl | ⟨2, _⟩ => rfl)

/-- The same over the last axis of the array of pairs. -/
theorem lift_lane256 (h : S8x256x256.Reduces [2] S8x256) (b : Fin 8) (p q : Fin 256) :
    h.lift (ix2 b p) q = (ix3 b p q : S8x256x256.Idx) :=
  funext fun c => Fin.ext (by match c with | ⟨0, _⟩ => rfl | ⟨1, _⟩ => rfl | ⟨2, _⟩ => rfl)

/-- A sum over the three coordinates of a block, at `(b, p)`. -/
theorem laneSum_apply (v : FVec Ideal S8x256x3 .f32) (h : S8x256x3.Reduces [2] S8x256) (hφ : FKind.Formats .f32)
    (hacc : (0x00000000#32 : BitVec 32) = 0x00000000#32) (b : Fin 8) (p : Fin 256) :
    multiReduction .add [2] S8x256 v 0x00000000#32 h hφ hacc (ix2 b p) = ∑ d : Fin 3, v (ix3 b p d) :=
  (Ideal.multiReduction_add_single v 0x00000000#32 h hφ hacc (ix2 b p)).trans
    (Finset.sum_congr rfl fun d _ => congrArg v (lift_lane3 h b p d))

/-- A minimum over the 256 lanes of the array of pairs, at `(b, p)`: the fold of `min` from +∞. -/
theorem laneMin_apply (v : FVec Ideal S8x256x256 .f32) (h : S8x256x256.Reduces [2] S8x256) (hφ : FKind.Formats .f32)
    (hacc : (0x7F800000#32 : BitVec 32) = 0x7F800000#32) (b : Fin 8) (p : Fin 256) :
    multiReduction .minimumf [2] S8x256 v 0x7F800000#32 h hφ hacc (ix2 b p)
      = (Finset.univ : Finset (Fin 256)).fold min (Ideal.ofBits .f32 0x7F800000#32) (fun q => v (ix3 b p q)) :=
  (multiReduction_minimumf_eq_fold v 0x7F800000#32 h hφ hacc (ix2 b p)).trans
    ((h.fold_filter_drop_single _ _ v (ix2 b p)).trans
      (Finset.fold_congr fun q _ => congrArg v (lift_lane256 h b p q)))

/-- A field over `(b, p)` given a unit last axis and repeated along it reads, at `(b, p, q)`, the field at `(b, p)`. -/
theorem bcastRow_apply (u : FVec Ideal S8x256 .f32) (hc : S8x256.ShapeCasts S8x256x1) (hb : S8x256x1.Broadcasts S8x256x256)
    (b : Fin 8) (p q : Fin 256) :
    broadcastTo S8x256x256 (shapeCast S8x256x1 u hc) hb (ix3 b p q) = u (ix2 b p) :=
  (broadcastTo_apply _ hb (ix3 b p q) (ix3 b p (0 : Fin 1))
      (fun a => by match a with | ⟨0, _⟩ => rfl | ⟨1, _⟩ => rfl | ⟨2, _⟩ => rfl)).trans
    (shapeCast_apply u hc (ix3 b p (0 : Fin 1)) (ix2 b p) (by
      rw [Shape.rowMajor_val_two, Shape.rowMajor_val_three]
      show b.val * 256 + p.val = (b.val * 256 + p.val) * 1 + 0
      omega))

/-- A field over `(b, q)` given a unit middle axis and repeated along it reads, at `(b, p, q)`, the field at `(b, q)`. -/
theorem bcastCol_apply (u : FVec Ideal S8x256 .f32) (hc : S8x256.ShapeCasts S8x1x256) (hb : S8x1x256.Broadcasts S8x256x256)
    (b : Fin 8) (p q : Fin 256) :
    broadcastTo S8x256x256 (shapeCast S8x1x256 u hc) hb (ix3 b p q) = u (ix2 b q) :=
  (broadcastTo_apply _ hb (ix3 b p q) (ix3 b (0 : Fin 1) q)
      (fun a => by match a with | ⟨0, _⟩ => rfl | ⟨1, _⟩ => rfl | ⟨2, _⟩ => rfl)).trans
    (shapeCast_apply u hc (ix3 b (0 : Fin 1) q) (ix2 b q) (by
      rw [Shape.rowMajor_val_two, Shape.rowMajor_val_three]
      show b.val * 256 + q.val = (b.val * 1 + 0) * 256 + q.val
      omega))

/-! The contraction's operand indices: batch axis 0 of both, the free axis of each, the three coordinates contracted. -/

theorem lhs_0 (i : S8x256x256.Idx) (q : dot_S8x256x3_S8x256x3_S8x256x256_2_2_1_1_0_0.contr.Idx) : (dot_S8x256x3_S8x256x3_S8x256x256_2_2_1_1_0_0.lhsIdx i q 0).val = (i 0).val := by
  unfold DotDims.lhsIdx
  rw [dif_pos (show (0 : Fin S8x256x3.rank) ∈ dot_S8x256x3_S8x256x3_S8x256x256_2_2_1_1_0_0.lhsBatch by decide)]
  rfl
theorem lhs_1 (i : S8x256x256.Idx) (q : dot_S8x256x3_S8x256x3_S8x256x256_2_2_1_1_0_0.contr.Idx) : (dot_S8x256x3_S8x256x3_S8x256x256_2_2_1_1_0_0.lhsIdx i q 1).val = (i 1).val := by
  unfold DotDims.lhsIdx
  rw [dif_neg (show ¬(1 : Fin S8x256x3.rank) ∈ dot_S8x256x3_S8x256x3_S8x256x256_2_2_1_1_0_0.lhsBatch by decide),
    dif_pos (show (1 : Fin S8x256x3.rank) ∈ dot_S8x256x3_S8x256x3_S8x256x256_2_2_1_1_0_0.lhsNonContracting by decide)]
  rfl
theorem lhs_2 (i : S8x256x256.Idx) (q : dot_S8x256x3_S8x256x3_S8x256x256_2_2_1_1_0_0.contr.Idx) : (dot_S8x256x3_S8x256x3_S8x256x256_2_2_1_1_0_0.lhsIdx i q 2).val = (q ⟨0, by decide⟩).val :=
  dot_S8x256x3_S8x256x3_S8x256x256_2_2_1_1_0_0.lhsIdx_val_of_single rfl i q
theorem rhs_0 (i : S8x256x256.Idx) (q : dot_S8x256x3_S8x256x3_S8x256x256_2_2_1_1_0_0.contr.Idx) : (dot_S8x256x3_S8x256x3_S8x256x256_2_2_1_1_0_0.rhsIdx i q 0).val = (i 0).val := by
  unfold DotDims.rhsIdx
  rw [dif_pos (show (0 : Fin S8x256x3.rank) ∈ dot_S8x256x3_S8x256x3_S8x256x256_2_2_1_1_0_0.rhsBatch by decide)]
  rfl
theorem rhs_1 (i : S8x256x256.Idx) (q : dot_S8x256x3_S8x256x3_S8x256x256_2_2_1_1_0_0.contr.Idx) : (dot_S8x256x3_S8x256x3_S8x256x256_2_2_1_1_0_0.rhsIdx i q 1).val = (i 2).val := by
  unfold DotDims.rhsIdx
  rw [dif_neg (show ¬(1 : Fin S8x256x3.rank) ∈ dot_S8x256x3_S8x256x3_S8x256x256_2_2_1_1_0_0.rhsBatch by decide),
    dif_pos (show (1 : Fin S8x256x3.rank) ∈ dot_S8x256x3_S8x256x3_S8x256x256_2_2_1_1_0_0.rhsNonContracting by decide)]
  rfl
theorem rhs_2 (i : S8x256x256.Idx) (q : dot_S8x256x3_S8x256x3_S8x256x256_2_2_1_1_0_0.contr.Idx) : (dot_S8x256x3_S8x256x3_S8x256x256_2_2_1_1_0_0.rhsIdx i q 2).val = (q ⟨0, by decide⟩).val :=
  dot_S8x256x3_S8x256x3_S8x256x256_2_2_1_1_0_0.rhsIdx_val_of_single rfl i q

/-- The product of the two blocks into the zero accumulator, at `(b, p, q)`: the inner product of point `p` of the
    first and point `q` of the second. -/
theorem matmul3_apply (l r : FVec Ideal S8x256x3 .bf16) (b : Fin 8) (p q : Fin 256) :
    matmul dot_S8x256x3_S8x256x3_S8x256x256_2_2_1_1_0_0 none l r (constant S8x256x256 .f32 0x00000000#32) (ix3 b p q)
      = ∑ d : Fin 3, l (ix3 b p d) * r (ix3 b q d) := by
  refine (Ideal.matmul_constant_zero_apply dot_S8x256x3_S8x256x3_S8x256x256_2_2_1_1_0_0 none l r (ix3 b p q)).trans ?_
  rw [← Equiv.sum_comp (contrEquiv1 dot_S8x256x3_S8x256x3_S8x256x256_2_2_1_1_0_0 3 rfl rfl).symm]
  refine Finset.sum_congr rfl fun k _ => ?_
  have hk := contrEquiv1_symm_val dot_S8x256x3_S8x256x3_S8x256x256_2_2_1_1_0_0 3 rfl rfl k
  have el : dot_S8x256x3_S8x256x3_S8x256x256_2_2_1_1_0_0.lhsIdx (ix3 b p q) ((contrEquiv1 dot_S8x256x3_S8x256x3_S8x256x256_2_2_1_1_0_0 3 rfl rfl).symm k) = (ix3 b p k : S8x256x3.Idx) :=
    funext fun a => Fin.ext (by
      match a with
      | ⟨0, _⟩ => exact lhs_0 _ _
      | ⟨1, _⟩ => exact lhs_1 _ _
      | ⟨2, _⟩ => exact (lhs_2 _ _).trans hk)
  have er : dot_S8x256x3_S8x256x3_S8x256x256_2_2_1_1_0_0.rhsIdx (ix3 b p q) ((contrEquiv1 dot_S8x256x3_S8x256x3_S8x256x256_2_2_1_1_0_0 3 rfl rfl).symm k) = (ix3 b q k : S8x256x3.Idx) :=
    funext fun a => Fin.ext (by
      match a with
      | ⟨0, _⟩ => exact rhs_0 _ _
      | ⟨1, _⟩ => exact rhs_1 _ _
      | ⟨2, _⟩ => exact (rhs_2 _ _).trans hk)
  rw [el, er]

/-! ### The second payload at an index -/

/-- The array of pairs the lane minimum is taken over, at `(b, p, q)`: the squared distance between point `p` of
    the first block and point `q` of the second; then the running minimum. -/
theorem pay2_apply0 (x0 x1 : Vec Ideal S8x256x3 .f32) (s : Vec Ideal S8x256 .f32) (b : Fin 8) (p : Fin 256) :
    k0_pay2 (F := Ideal) x0 x1 s (ix2 b p) = min (s (ix2 b p)) (tileMin x0 x1 b p) := by
  unfold k0_pay2
  refine (congrFun (shapeCast_self _ _) (ix2 b p)).trans ?_
  rw [minimumf_apply]
  refine congrArg (min (s (ix2 b p))) ?_
  refine (laneMin_apply _ _ _ _ b p).trans ?_
  unfold tileMin
  refine Finset.fold_congr fun q _ => ?_
  rw [subf_apply, addf_apply, mulf_apply, broadcast_apply]
  refine congrArg₂ (· - ·) (congrArg₂ (· + ·) ?_ ?_) (congrArg (_ * ·) ?_)
  · exact (bcastRow_apply _ _ _ b p q).trans (laneSum_apply _ _ _ _ b p)
  · exact (bcastCol_apply _ _ _ b p q).trans (laneSum_apply _ _ _ _ b q)
  · exact matmul3_apply _ _ b p q

/-- The second call's payload is the same term as the first's. -/
theorem pay2_apply1 (x0 x1 : Vec Ideal S8x256x3 .f32) (s : Vec Ideal S8x256 .f32) (b : Fin 8) (p : Fin 256) :
    k1_pay2 (F := Ideal) x0 x1 s (ix2 b p) = min (s (ix2 b p)) (tileMin x0 x1 b p) :=
  pay2_apply0 x0 x1 s b p

end Cert.KernelIdeal.NearestPay

end
-- ==== Proof.LibTiledMin.lean ====
/-
  The minimum of a function over N = T · W positions, taken tile by tile.

  The positions 0, …, N − 1 are cut into T consecutive tiles of W positions each. `upTo f W n` is the least value
  of `f` over the first `n` tiles. It is the top element before any tile is read, each further tile lowers it to the
  minimum of itself and that tile's own least value, and after all T tiles it is the least value of `f` over every
  position. Last, the fold of `min` from the top element over a finite set is that set's infimum.
-/
import Mathlib.Data.Finset.Lattice.Fold
import Mathlib.Data.Fintype.Basic
import Mathlib.Order.Fin.Basic

namespace TiledMin

variable {α : Type*} [LinearOrder α] [OrderTop α] {N : ℕ}

/-- The least value of `f` over the first `n` tiles of width `W`: over the positions below `W · n`. -/
def upTo (f : Fin N → α) (W n : ℕ) : α := (Finset.univ.filter fun c : Fin N => c.val < W * n).inf f

/-- Before any tile: the infimum over no position is the top element. -/
theorem upTo_zero (f : Fin N → α) (W : ℕ) : upTo f W 0 = ⊤ := by
  unfold upTo
  rw [Finset.filter_false_of_mem (fun c _ => by rw [Nat.mul_zero]; exact Nat.not_lt_zero _), Finset.inf_empty]

/-- Position `q` of tile `j` is a position: `W · j + q < W · (j + 1) ≤ W · T = N`. -/
theorem tile_lt {T W : ℕ} (hN : N = T * W) {j : ℕ} (hj : j < T) (q : Fin W) : W * j + q.val < N := by
  have h1 : W * j + q.val < W * (j + 1) := by rw [Nat.mul_succ]; have := q.isLt; omega
  have h2 : W * (j + 1) ≤ W * T := Nat.mul_le_mul_left W hj
  rw [hN, Nat.mul_comm T W]; omega

/-- One more tile: the positions below `W · (j + 1)` are those below `W · j` together with the `W` positions
    `W · j + q` of tile `j`, so the least value over them is the minimum of the two least values. -/
theorem upTo_succ (f : Fin N → α) (W j : ℕ) (hlt : ∀ q : Fin W, W * j + q.val < N) :
    upTo f W (j + 1) = min (upTo f W j) ((Finset.univ : Finset (Fin W)).inf fun q => f ⟨W * j + q.val, hlt q⟩) := by
  unfold upTo
  have hset : (Finset.univ.filter fun c : Fin N => c.val < W * (j + 1))
      = (Finset.univ.filter fun c : Fin N => c.val < W * j)
        ∪ (Finset.univ : Finset (Fin W)).image (fun q => (⟨W * j + q.val, hlt q⟩ : Fin N)) := by
    ext c
    simp only [Finset.mem_filter, Finset.mem_univ, true_and, Finset.mem_union, Finset.mem_image]
    constructor
    · intro hc
      by_cases h : c.val < W * j
      · exact Or.inl h
      · refine Or.inr ⟨⟨c.val - W * j, ?_⟩, Fin.ext ?_⟩
        · rw [Nat.mul_succ] at hc; omega
        · show W * j + (c.val - W * j) = c.val; omega
    · rintro (h | ⟨q, rfl⟩)
      · rw [Nat.mul_succ]; omega
      · show W * j + q.val < W * (j + 1)
        rw [Nat.mul_succ]; have := q.isLt; omega
  rw [hset, Finset.inf_union, Finset.inf_image]
  rfl

/-- After all `T` tiles every position has been read. -/
theorem upTo_all {T W : ℕ} (hN : N = T * W) (f : Fin N → α) : upTo f W T = Finset.univ.inf f := by
  unfold upTo
  rw [Finset.filter_true_of_mem (fun c _ => lt_of_lt_of_eq c.isLt (hN.trans (Nat.mul_comm T W)))]

/-- The fold of `min` from the top element over a finite set is the set's infimum. -/
theorem fold_min_eq_inf {ι : Type*} (s : Finset ι) (g : ι → α) : s.fold min ⊤ g = s.inf g := rfl

end TiledMin
-- ==== Proof.Spec.lean ====
/-
  The chamfer distance of two point clouds, as one function on the extended reals.

  A cloud is 8 batches of 4096 points with 3 coordinates. For clouds `x`, `y`, batch `b` and points `i` of `x`
  and `j` of `y`, the squared distance is written the way both programs compute it,
      dist x y b i j = (|x_i|² + |y_j|²) − 2 · ⟨x_i, y_j⟩,
  with the squared norms and the inner product as sums over the three coordinates. `nearestAt x y b i` is the
  least of these over all 4096 points `j` of `y` (a fold of `min` from +∞), and the chamfer distance is the mean
  over (b, j) of the distance from `y_j` to its nearest point of `x` plus the mean over (b, i) of the distance
  from `x_i` to its nearest point of `y`. The two means and their sum are the same host operations in both
  programs; they are kept as one function `finish` of the two fields of nearest distances and never opened.

  Exchanging the two clouds only commutes a sum and three products (`dist_swap`): no finiteness is involved.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The shapes of a cloud, of a field over its points, and of a scalar. -/
abbrev SCloud : Shape := ⟨3, ![8, 4096, 3]⟩
abbrev SField : Shape := ⟨2, ![8, 4096]⟩
abbrev SScalar : Shape := ⟨0, ![]⟩

/-- A cloud of points and a field of one number per point, at the extended reals. -/
abbrev Cloud : Type := SCloud.Idx → EReal
abbrev Field : Type := SField.Idx → EReal

/-- |x_i|² in batch `b`: the sum of the squares of the three coordinates. -/
def sqNorm (x : Cloud) (b : Fin 8) (i : Fin 4096) : EReal :=
  ∑ d : Fin 3, x (ix3 b i d) * x (ix3 b i d)

/-- ⟨x_i, y_j⟩ in batch `b`. -/
def inner (x y : Cloud) (b : Fin 8) (i j : Fin 4096) : EReal :=
  ∑ d : Fin 3, x (ix3 b i d) * y (ix3 b j d)

/-- The squared distance between point `i` of `x` and point `j` of `y`, as both programs spell it. -/
def dist (x y : Cloud) (b : Fin 8) (i j : Fin 4096) : EReal :=
  (sqNorm x b i + sqNorm y b j) - Ideal.ofBits .f32 0x40000000#32 * inner x y b i j

/-- The squared distance from point `i` of `x` to the nearest point of `y`: the least `dist` over all `j`. -/
def nearestAt (x y : Cloud) (b : Fin 8) (i : Fin 4096) : EReal :=
  (Finset.univ : Finset (Fin 4096)).fold min (Ideal.ofBits .f32 0x7F800000#32) (fun j => dist x y b i j)

/-- The same as a field over the points of `x`. -/
def nearest (x y : Cloud) : Field := fun r => nearestAt x y (r 0) (r 1)

theorem nearest_apply (x y : Cloud) (b : Fin 8) (i : Fin 4096) : nearest x y (ix2 b i) = nearestAt x y b i := rfl

/-- The inner product does not see the order of the clouds. -/
theorem inner_swap (x y : Cloud) (b : Fin 8) (i j : Fin 4096) : inner x y b i j = inner y x b j i :=
  Finset.sum_congr rfl fun d _ => mul_comm _ _

/-- Nor does the squared distance: a sum of two norms and a product commuted. -/
theorem dist_swap (x y : Cloud) (b : Fin 8) (i j : Fin 4096) : dist x y b i j = dist y x b j i := by
  unfold dist; rw [inner_swap x y b i j, add_comm (sqNorm x b i)]

/-- What both programs do with the two fields of nearest distances: each is summed over all (b, i) from 0 and
    divided by 32768, and the two means are added. Kept as one function; the shape facts are the programs' own. -/
def finish (h : SField.ReducesTo [0, 1] SScalar) (h0 : 0 < SScalar.numel) (A B : Field) : SScalar.Idx → EReal :=
  addf (F := Ideal) (φ := .f32)
    (Host.divf (F := Ideal) (φ := .f32) (Host.reduceAdd (F := Ideal) (φ := .f32) A (constant (F := Ideal) SScalar .f32 0x00000000#32) h h0)
      (constant (F := Ideal) SScalar .f32 0x47000000#32))
    (Host.divf (F := Ideal) (φ := .f32) (Host.reduceAdd (F := Ideal) (φ := .f32) B (constant (F := Ideal) SScalar .f32 0x00000000#32) h h0)
      (constant (F := Ideal) SScalar .f32 0x47000000#32))

end Cert.Chamfer

end
-- ==== Proof.KI.Value0.lean ====
/-
  The nearest-point kernel (pallas_call 0), read as a value: its result array is the field of nearest distances.

  The grid is 16 × 16 and point t = 16 i + j works on row tile i (256 points of the first cloud, the call's first
  operand) and column tile j (256 points of the second cloud, its second operand). Fix a batch b and a point p of the
  row tile, and let r = 256 i + p be its row; write f for row r of the squared distances, a function of the 4096
  columns. The block reads put element (b, p, d) of the first block at (b, r, d) of its array and element (b, q, d) of
  the second at (b, 256 j + q, d), so the least value the body takes over its tile at point t is the least of f over
  the 256 columns of tile j. The scratch starts every row of tiles from +∞, the top element, and each point lowers it
  to the minimum with its tile's least; by induction on j it holds, after tile j, the least of f over the first j + 1
  tiles, and after tile 15 the least of f over all 4096 columns: the distance from point r to the nearest point of the
  other cloud. That is what the last point of each row of tiles writes back, into block i of the result array; the 16
  blocks tile the array, so it ends holding the whole field.
-/
import proofs.«172201_j74955769249969_1_alg».proof.Proof.KI.Body0
import proofs.«172201_j74955769249969_1_alg».proof.Proof.KI.Payload
import proofs.«172201_j74955769249969_1_alg».proof.Proof.LibTiledMin
import proofs.«172201_j74955769249969_1_alg».proof.Proof.Spec
import Idealize.ShloMosaic.Lib.Pipeline.Value
import Idealize.ShloMosaic.Lib.ValueIdx

set_option maxRecDepth 16384

noncomputable section

namespace Cert.KernelIdeal.Nearest0

open Cert.KernelIdeal Cert.KernelIdeal.Gen Cert.KernelIdeal.NearestPay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The blocks, read off the arrays -/

/-- The block indices over the grid, point t = 16 i + j: windows 0 and 2 sit at row tile i = t / 16, window 1 at
    column tile j = t % 16; every other block index is 0. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

theorem val_lt (t : Fin cfg0.N) : t.val < 256 := lt_of_lt_of_eq t.isLt (show cfg0.N = 256 from N_0)

/-- The first block at point t is rows 256 · (t / 16) + p of its array. -/
theorem iblk0_apply (c : Dev nD) (t : Fin cfg0.N) (b : Fin 8) (p : Fin 256) (d : Fin 3) (r : Fin 4096)
    (hr : r.val = 256 * (t.val / 16) + p.val) :
    (iblk V c 0 t : Vec Ideal S8x256x3 .f32) (ix3 b p d) = (V c main_arg0 : Vec Ideal S8x4096x3 .f32) (ix3 b r d) := by
  obtain ⟨e0, e1, e2, -⟩ := idx_facts t
  unfold iblk
  rw [View.read_apply]
  show V c main_arg0 _ = V c main_arg0 _
  congr 1
  funext a
  apply Fin.ext
  match a with
  | ⟨0, _⟩ => show win0_0.index t (0 : Fin 3) * 8 + 1 * b.val = b.val; rw [e0]; omega
  | ⟨1, _⟩ => show win0_0.index t (1 : Fin 3) * 256 + 1 * p.val = r.val; rw [e1, hr]; omega
  | ⟨2, _⟩ => show win0_0.index t (2 : Fin 3) * 3 + 1 * d.val = d.val; rw [e2]; omega

/-- The second block at point t is rows 256 · (t % 16) + q of its array. -/
theorem iblk1_apply (c : Dev nD) (t : Fin cfg0.N) (b : Fin 8) (q : Fin 256) (d : Fin 3) (s : Fin 4096)
    (hs : s.val = 256 * (t.val % 16) + q.val) :
    (iblk V c 1 t : Vec Ideal S8x256x3 .f32) (ix3 b q d) = (V c main_arg1 : Vec Ideal S8x4096x3 .f32) (ix3 b s d) := by
  obtain ⟨-, -, -, e0, e1, e2, -⟩ := idx_facts t
  unfold iblk
  rw [View.read_apply]
  show V c main_arg1 _ = V c main_arg1 _
  congr 1
  funext a
  apply Fin.ext
  match a with
  | ⟨0, _⟩ => show win0_1.index t (0 : Fin 3) * 8 + 1 * b.val = b.val; rw [e0]; omega
  | ⟨1, _⟩ => show win0_1.index t (1 : Fin 3) * 256 + 1 * q.val = s.val; rw [e1, hs]; omega
  | ⟨2, _⟩ => show win0_1.index t (2 : Fin 3) * 3 + 1 * d.val = d.val; rw [e2]; omega

/-! ## One tile's least distances -/

/-- The word the minima start from is the top of the extended reals. -/
theorem ofBits_inf : Ideal.ofBits .f32 0x7F800000#32 = (⊤ : EReal) := by
  simp [Ideal.ofBits, Ideal.ieee]

/-- Row r of the squared distances in batch b: from point r of the first cloud to every point of the second. -/
def rowDist (X Y : Cert.Chamfer.Cloud) (b : Fin 8) (r : Fin 4096) : Fin 4096 → EReal :=
  fun s => Cert.Chamfer.dist X Y b r s

/-- At point t the tile's least distance from point p of the first block is the least of row 256 · (t / 16) + p over
    the 256 columns of column tile j = t % 16. -/
theorem tile_eq (c : Dev nD) (t : Fin cfg0.N) (b : Fin 8) (p : Fin 256) (r : Fin 4096)
    (hr : r.val = 256 * (t.val / 16) + p.val) (j : ℕ) (hj : t.val % 16 = j) (hlt : ∀ q : Fin 256, 256 * j + q.val < 4096) :
    tileMin (iblk V c 0 t) (iblk V c 1 t) b p
      = (Finset.univ : Finset (Fin 256)).inf fun q =>
          rowDist (V c main_arg0) (V c main_arg1) b r ⟨256 * j + q.val, hlt q⟩ := by
  subst hj
  unfold tileMin
  rw [ofBits_inf]
  refine (TiledMin.fold_min_eq_inf _ _).trans ?_
  refine Finset.inf_congr rfl fun q _ => ?_
  have h0 : ∀ d : Fin 3, (iblk V c 0 t : Vec Ideal S8x256x3 .f32) (ix3 b p d) = (V c main_arg0 : Vec Ideal S8x4096x3 .f32) (ix3 b r d) :=
    fun d => iblk0_apply V c t b p d r hr
  have h1 : ∀ d : Fin 3, (iblk V c 1 t : Vec Ideal S8x256x3 .f32) (ix3 b q d)
      = (V c main_arg1 : Vec Ideal S8x4096x3 .f32) (ix3 b ⟨256 * (t.val % 16) + q.val, hlt q⟩ d) :=
    fun d => iblk1_apply V c t b q d ⟨_, hlt q⟩ rfl
  unfold rowDist Cert.Chamfer.dist Cert.Chamfer.sqNorm Cert.Chamfer.inner
  simp only [h0, h1]

/-! ## The running minimum along a row of tiles -/

theorem accAt_congr (c : Dev nD) {n n' : ℕ} (e : n = n') (h : n < cfg0.N) (h' : n' < cfg0.N) :
    accAt V c n h = accAt V c n' h' := by
  subst e; rfl

/-- The 4096 columns are 16 tiles of 256. -/
theorem cols_eq : (4096 : ℕ) = 16 * 256 := rfl

/-- After column tile n of row tile i the scratch holds, at point p, the least of row 256 · i + p over the first
    n + 1 column tiles: +∞ before the first tile, and each tile lowers it to the minimum with its own least. -/
theorem acc_eq (c : Dev nD) (i : Fin 16) (b : Fin 8) (p : Fin 256) (r : Fin 4096) (hr : r.val = 256 * i.val + p.val) :
    ∀ (n : ℕ) (hn : n < 16) (ht : 16 * i.val + n < cfg0.N),
      accAt V c (16 * i.val + n) ht (ix2 b p) = TiledMin.upTo (rowDist (V c main_arg0) (V c main_arg1) b r) 256 (n + 1)
  | 0, hn, ht => by
    have hi := i.isLt
    rw [TiledMin.upTo_succ _ 256 0 (TiledMin.tile_lt cols_eq hn), TiledMin.upTo_zero,
      ← tile_eq V c ⟨16 * i.val + 0, ht⟩ b p r (by show r.val = 256 * ((16 * i.val + 0) / 16) + p.val; omega) 0
        (by show (16 * i.val + 0) % 16 = 0; omega) (TiledMin.tile_lt cols_eq hn)]
    refine (congrFun (accAt_first V c ⟨16 * i.val + 0, ht⟩ (by show (16 * i.val + 0) % 16 = 0; omega)) (ix2 b p)).trans ?_
    rw [pay2_apply0, pay1_apply0, ofBits_inf]
  | n + 1, hn, ht => by
    have hi := i.isLt
    have ih := acc_eq c i b p r hr n (Nat.lt_of_succ_lt hn) (Nat.lt_of_succ_lt ht)
    rw [TiledMin.upTo_succ _ 256 (n + 1) (TiledMin.tile_lt cols_eq hn), ← ih,
      ← tile_eq V c ⟨16 * i.val + (n + 1), ht⟩ b p r (by show r.val = 256 * ((16 * i.val + (n + 1)) / 16) + p.val; omega) (n + 1)
        (by show (16 * i.val + (n + 1)) % 16 = n + 1; omega) (TiledMin.tile_lt cols_eq hn)]
    refine (congrFun (accAt_next V c ⟨16 * i.val + (n + 1), ht⟩ (by show ¬(16 * i.val + (n + 1)) % 16 = 0; omega)) (ix2 b p)).trans ?_
    rw [pay2_apply0]
    exact congrArg (fun a => min (a (ix2 b p)) _) (accAt_congr V c (by show 16 * i.val + (n + 1) - 1 = 16 * i.val + n; omega) _ _)

/-- After the last column tile of row tile i the scratch holds, at point p, the distance from point 256 · i + p of the
    first cloud to the nearest point of the second. -/
theorem acc_last (c : Dev nD) (i : Fin 16) (b : Fin 8) (p : Fin 256) (r : Fin 4096) (hr : r.val = 256 * i.val + p.val)
    (ht : 16 * i.val + 15 < cfg0.N) :
    accAt V c (16 * i.val + 15) ht (ix2 b p) = Cert.Chamfer.nearestAt (V c main_arg0) (V c main_arg1) b r := by
  refine (acc_eq V c i b p r hr 15 (by decide) ht).trans ?_
  refine (TiledMin.upTo_all (T := 16) cols_eq _).trans ?_
  unfold Cert.Chamfer.nearestAt
  rw [ofBits_inf]
  exact (TiledMin.fold_min_eq_inf _ _).symm

/-! ## What is written back, and the array after the run -/

/-- The point that ends row tile i writes back that tile's block of the field of nearest distances. -/
theorem flushed_eq (c : Dev nD) (t : Fin cfg0.N) (hf : (cfg0.win 2).flush t = true) :
    (dat V c).flushed 2 t
      = ((cfg0.win 2).blk t).view.read (Elt Ideal) (Cert.Chamfer.nearest (V c main_arg0) (V c main_arg1)) := by
  have h15 : t.val % 16 = 15 := (flush0_2 t).mp hf
  have hlt := val_lt t
  obtain ⟨-, -, -, -, -, -, e0, e1⟩ := idx_facts t
  show (cfg0.win 2).cut (grid0.coords t) ((dat V c).after 2 t) = _
  rw [after_2]
  funext y
  obtain ⟨b, p, rfl⟩ : ∃ (b : Fin 8) (p : Fin 256), y = ix2 b p := ⟨y 0, y 1, eq_ix2 y⟩
  rw [View.read_apply]
  have hemb : ((cfg0.win 2).blk t).view.emb (ix2 b p)
      = (ix2 b (⟨256 * (t.val / 16) + p.val, by omega⟩ : Fin 4096) : S8x4096.Idx) := by
    funext a
    apply Fin.ext
    match a with
    | ⟨0, _⟩ => show win0_2.index t (0 : Fin 2) * 8 + 1 * b.val = b.val; rw [e0]; omega
    | ⟨1, _⟩ => show win0_2.index t (1 : Fin 2) * 256 + 1 * p.val = 256 * (t.val / 16) + p.val; rw [e1]; omega
  rw [hemb, Cert.Chamfer.nearest_apply]
  refine Eq.trans ?_ (acc_last V c ⟨t.val / 16, by omega⟩ b p ⟨256 * (t.val / 16) + p.val, by omega⟩ rfl
    (by have := t.isLt; show 16 * (t.val / 16) + 15 < cfg0.N; omega))
  show accAt V c t.val t.isLt (ix2 b p) = accAt V c (16 * (t.val / 16) + 15) _ (ix2 b p)
  exact congrFun (accAt_congr V c (by omega) _ _) (ix2 b p)

/-- The blocks written back tile the array, so it ends holding the field of nearest distances. -/
theorem final (V : (c : Dev nD) → (b : Ref sig .tc) → Buf (Elt Ideal) ((c : Thread nD τ).loc b)) (c : Dev nD) :
    (dat (F := Ideal) V c).arrAt 2 cfg0.N = Cert.Chamfer.nearest (V c main_arg0) (V c main_arg1) :=
  (dat V c).arrAt_eq_of_cover 2 _ (flushed_eq V c) fun i => by
    have h0 : (i 0 : ℕ) < 8 := (i 0).isLt
    have h1 : (i 1 : ℕ) < 4096 := (i 1).isLt
    have hN : cfg0.N = 256 := N_0
    have ht : 16 * ((i 1 : ℕ) / 256) + 15 < cfg0.N := by rw [hN]; omega
    obtain ⟨-, -, -, -, -, -, e0, e1⟩ := idx_facts ⟨16 * ((i 1 : ℕ) / 256) + 15, ht⟩
    have e1' : win0_2.index ⟨16 * ((i 1 : ℕ) / 256) + 15, ht⟩ (1 : Fin 2) = (16 * ((i 1 : ℕ) / 256) + 15) / 16 := e1
    refine ⟨⟨16 * ((i 1 : ℕ) / 256) + 15, ht⟩,
      (flush0_2 _).mpr (by show (16 * ((i 1 : ℕ) / 256) + 15) % 16 = 15; omega), ?_⟩
    show i ∈ ((View.whole main_v0).slice (win0_2.rect ⟨16 * ((i 1 : ℕ) / 256) + 15, ht⟩)).set
    rw [View.set_slice_whole, Rect.mem_set_unit]
    intro a
    match a with
    | ⟨0, _⟩ =>
      show win0_2.index ⟨16 * ((i 1 : ℕ) / 256) + 15, ht⟩ (0 : Fin 2) * 8 ≤ (i 0 : ℕ)
        ∧ (i 0 : ℕ) < win0_2.index ⟨16 * ((i 1 : ℕ) / 256) + 15, ht⟩ (0 : Fin 2) * 8 + 8
      rw [e0]; omega
    | ⟨1, _⟩ =>
      show win0_2.index ⟨16 * ((i 1 : ℕ) / 256) + 15, ht⟩ (1 : Fin 2) * 256 ≤ (i 1 : ℕ)
        ∧ (i 1 : ℕ) < win0_2.index ⟨16 * ((i 1 : ℕ) / 256) + 15, ht⟩ (1 : Fin 2) * 256 + 256
      rw [e1']; omega

end Cert.KernelIdeal.Nearest0

end
-- ==== Proof.KI.Value1.lean ====
/-
  The nearest-point kernel (pallas_call 1), read as a value: its result array is the field of nearest distances.

  The grid is 16 × 16 and point t = 16 i + j works on row tile i (256 points of the second cloud, the call's first
  operand) and column tile j (256 points of the first cloud, its second operand). Fix a batch b and a point p of the
  row tile, and let r = 256 i + p be its row; write f for row r of the squared distances, a function of the 4096
  columns. The block reads put element (b, p, d) of the first block at (b, r, d) of its array and element (b, q, d) of
  the second at (b, 256 j + q, d), so the least value the body takes over its tile at point t is the least of f over
  the 256 columns of tile j. The scratch starts every row of tiles from +∞, the top element, and each point lowers it
  to the minimum with its tile's least; by induction on j it holds, after tile j, the least of f over the first j + 1
  tiles, and after tile 15 the least of f over all 4096 columns: the distance from point r to the nearest point of the
  other cloud. That is what the last point of each row of tiles writes back, into block i of the result array; the 16
  blocks tile the array, so it ends holding the whole field.
-/
import proofs.«172201_j74955769249969_1_alg».proof.Proof.KI.Body1
import proofs.«172201_j74955769249969_1_alg».proof.Proof.KI.Payload
import proofs.«172201_j74955769249969_1_alg».proof.Proof.LibTiledMin
import proofs.«172201_j74955769249969_1_alg».proof.Proof.Spec
import Idealize.ShloMosaic.Lib.Pipeline.Value
import Idealize.ShloMosaic.Lib.ValueIdx

set_option maxRecDepth 16384

noncomputable section

namespace Cert.KernelIdeal.Nearest1

open Cert.KernelIdeal Cert.KernelIdeal.Gen Cert.KernelIdeal.NearestPay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The blocks, read off the arrays -/

/-- The block indices over the grid, point t = 16 i + j: windows 0 and 2 sit at row tile i = t / 16, window 1 at
    column tile j = t % 16; every other block index is 0. -/
theorem idx_facts : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

theorem val_lt (t : Fin cfg1.N) : t.val < 256 := lt_of_lt_of_eq t.isLt (show cfg1.N = 256 from N_1)

/-- The first block at point t is rows 256 · (t / 16) + p of its array. -/
theorem iblk0_apply (c : Dev nD) (t : Fin cfg1.N) (b : Fin 8) (p : Fin 256) (d : Fin 3) (r : Fin 4096)
    (hr : r.val = 256 * (t.val / 16) + p.val) :
    (iblk V c 0 t : Vec Ideal S8x256x3 .f32) (ix3 b p d) = (V c main_arg1 : Vec Ideal S8x4096x3 .f32) (ix3 b r d) := by
  obtain ⟨e0, e1, e2, -⟩ := idx_facts t
  unfold iblk
  rw [View.read_apply]
  show V c main_arg1 _ = V c main_arg1 _
  congr 1
  funext a
  apply Fin.ext
  match a with
  | ⟨0, _⟩ => show win1_0.index t (0 : Fin 3) * 8 + 1 * b.val = b.val; rw [e0]; omega
  | ⟨1, _⟩ => show win1_0.index t (1 : Fin 3) * 256 + 1 * p.val = r.val; rw [e1, hr]; omega
  | ⟨2, _⟩ => show win1_0.index t (2 : Fin 3) * 3 + 1 * d.val = d.val; rw [e2]; omega

/-- The second block at point t is rows 256 · (t % 16) + q of its array. -/
theorem iblk1_apply (c : Dev nD) (t : Fin cfg1.N) (b : Fin 8) (q : Fin 256) (d : Fin 3) (s : Fin 4096)
    (hs : s.val = 256 * (t.val % 16) + q.val) :
    (iblk V c 1 t : Vec Ideal S8x256x3 .f32) (ix3 b q d) = (V c main_arg0 : Vec Ideal S8x4096x3 .f32) (ix3 b s d) := by
  obtain ⟨-, -, -, e0, e1, e2, -⟩ := idx_facts t
  unfold iblk
  rw [View.read_apply]
  show V c main_arg0 _ = V c main_arg0 _
  congr 1
  funext a
  apply Fin.ext
  match a with
  | ⟨0, _⟩ => show win1_1.index t (0 : Fin 3) * 8 + 1 * b.val = b.val; rw [e0]; omega
  | ⟨1, _⟩ => show win1_1.index t (1 : Fin 3) * 256 + 1 * q.val = s.val; rw [e1, hs]; omega
  | ⟨2, _⟩ => show win1_1.index t (2 : Fin 3) * 3 + 1 * d.val = d.val; rw [e2]; omega

/-! ## One tile's least distances -/

/-- The word the minima start from is the top of the extended reals. -/
theorem ofBits_inf : Ideal.ofBits .f32 0x7F800000#32 = (⊤ : EReal) := by
  simp [Ideal.ofBits, Ideal.ieee]

/-- Row r of the squared distances in batch b: from point r of the first cloud to every point of the second. -/
def rowDist (X Y : Cert.Chamfer.Cloud) (b : Fin 8) (r : Fin 4096) : Fin 4096 → EReal :=
  fun s => Cert.Chamfer.dist X Y b r s

/-- At point t the tile's least distance from point p of the first block is the least of row 256 · (t / 16) + p over
    the 256 columns of column tile j = t % 16. -/
theorem tile_eq (c : Dev nD) (t : Fin cfg1.N) (b : Fin 8) (p : Fin 256) (r : Fin 4096)
    (hr : r.val = 256 * (t.val / 16) + p.val) (j : ℕ) (hj : t.val % 16 = j) (hlt : ∀ q : Fin 256, 256 * j + q.val < 4096) :
    tileMin (iblk V c 0 t) (iblk V c 1 t) b p
      = (Finset.univ : Finset (Fin 256)).inf fun q =>
          rowDist (V c main_arg1) (V c main_arg0) b r ⟨256 * j + q.val, hlt q⟩ := by
  subst hj
  unfold tileMin
  rw [ofBits_inf]
  refine (TiledMin.fold_min_eq_inf _ _).trans ?_
  refine Finset.inf_congr rfl fun q _ => ?_
  have h0 : ∀ d : Fin 3, (iblk V c 0 t : Vec Ideal S8x256x3 .f32) (ix3 b p d) = (V c main_arg1 : Vec Ideal S8x4096x3 .f32) (ix3 b r d) :=
    fun d => iblk0_apply V c t b p d r hr
  have h1 : ∀ d : Fin 3, (iblk V c 1 t : Vec Ideal S8x256x3 .f32) (ix3 b q d)
      = (V c main_arg0 : Vec Ideal S8x4096x3 .f32) (ix3 b ⟨256 * (t.val % 16) + q.val, hlt q⟩ d) :=
    fun d => iblk1_apply V c t b q d ⟨_, hlt q⟩ rfl
  unfold rowDist Cert.Chamfer.dist Cert.Chamfer.sqNorm Cert.Chamfer.inner
  simp only [h0, h1]

/-! ## The running minimum along a row of tiles -/

theorem accAt_congr (c : Dev nD) {n n' : ℕ} (e : n = n') (h : n < cfg1.N) (h' : n' < cfg1.N) :
    accAt V c n h = accAt V c n' h' := by
  subst e; rfl

/-- The 4096 columns are 16 tiles of 256. -/
theorem cols_eq : (4096 : ℕ) = 16 * 256 := rfl

/-- After column tile n of row tile i the scratch holds, at point p, the least of row 256 · i + p over the first
    n + 1 column tiles: +∞ before the first tile, and each tile lowers it to the minimum with its own least. -/
theorem acc_eq (c : Dev nD) (i : Fin 16) (b : Fin 8) (p : Fin 256) (r : Fin 4096) (hr : r.val = 256 * i.val + p.val) :
    ∀ (n : ℕ) (hn : n < 16) (ht : 16 * i.val + n < cfg1.N),
      accAt V c (16 * i.val + n) ht (ix2 b p) = TiledMin.upTo (rowDist (V c main_arg1) (V c main_arg0) b r) 256 (n + 1)
  | 0, hn, ht => by
    have hi := i.isLt
    rw [TiledMin.upTo_succ _ 256 0 (TiledMin.tile_lt cols_eq hn), TiledMin.upTo_zero,
      ← tile_eq V c ⟨16 * i.val + 0, ht⟩ b p r (by show r.val = 256 * ((16 * i.val + 0) / 16) + p.val; omega) 0
        (by show (16 * i.val + 0) % 16 = 0; omega) (TiledMin.tile_lt cols_eq hn)]
    refine (congrFun (accAt_first V c ⟨16 * i.val + 0, ht⟩ (by show (16 * i.val + 0) % 16 = 0; omega)) (ix2 b p)).trans ?_
    rw [pay2_apply1, pay1_apply1, ofBits_inf]
  | n + 1, hn, ht => by
    have hi := i.isLt
    have ih := acc_eq c i b p r hr n (Nat.lt_of_succ_lt hn) (Nat.lt_of_succ_lt ht)
    rw [TiledMin.upTo_succ _ 256 (n + 1) (TiledMin.tile_lt cols_eq hn), ← ih,
      ← tile_eq V c ⟨16 * i.val + (n + 1), ht⟩ b p r (by show r.val = 256 * ((16 * i.val + (n + 1)) / 16) + p.val; omega) (n + 1)
        (by show (16 * i.val + (n + 1)) % 16 = n + 1; omega) (TiledMin.tile_lt cols_eq hn)]
    refine (congrFun (accAt_next V c ⟨16 * i.val + (n + 1), ht⟩ (by show ¬(16 * i.val + (n + 1)) % 16 = 0; omega)) (ix2 b p)).trans ?_
    rw [pay2_apply1]
    exact congrArg (fun a => min (a (ix2 b p)) _) (accAt_congr V c (by show 16 * i.val + (n + 1) - 1 = 16 * i.val + n; omega) _ _)

/-- After the last column tile of row tile i the scratch holds, at point p, the distance from point 256 · i + p of the
    first cloud to the nearest point of the second. -/
theorem acc_last (c : Dev nD) (i : Fin 16) (b : Fin 8) (p : Fin 256) (r : Fin 4096) (hr : r.val = 256 * i.val + p.val)
    (ht : 16 * i.val + 15 < cfg1.N) :
    accAt V c (16 * i.val + 15) ht (ix2 b p) = Cert.Chamfer.nearestAt (V c main_arg1) (V c main_arg0) b r := by
  refine (acc_eq V c i b p r hr 15 (by decide) ht).trans ?_
  refine (TiledMin.upTo_all (T := 16) cols_eq _).trans ?_
  unfold Cert.Chamfer.nearestAt
  rw [ofBits_inf]
  exact (TiledMin.fold_min_eq_inf _ _).symm

/-! ## What is written back, and the array after the run -/

/-- The point that ends row tile i writes back that tile's block of the field of nearest distances. -/
theorem flushed_eq (c : Dev nD) (t : Fin cfg1.N) (hf : (cfg1.win 2).flush t = true) :
    (dat V c).flushed 2 t
      = ((cfg1.win 2).blk t).view.read (Elt Ideal) (Cert.Chamfer.nearest (V c main_arg1) (V c main_arg0)) := by
  have h15 : t.val % 16 = 15 := (flush1_2 t).mp hf
  have hlt := val_lt t
  obtain ⟨-, -, -, -, -, -, e0, e1⟩ := idx_facts t
  show (cfg1.win 2).cut (grid1.coords t) ((dat V c).after 2 t) = _
  rw [after_2]
  funext y
  obtain ⟨b, p, rfl⟩ : ∃ (b : Fin 8) (p : Fin 256), y = ix2 b p := ⟨y 0, y 1, eq_ix2 y⟩
  rw [View.read_apply]
  have hemb : ((cfg1.win 2).blk t).view.emb (ix2 b p)
      = (ix2 b (⟨256 * (t.val / 16) + p.val, by omega⟩ : Fin 4096) : S8x4096.Idx) := by
    funext a
    apply Fin.ext
    match a with
    | ⟨0, _⟩ => show win1_2.index t (0 : Fin 2) * 8 + 1 * b.val = b.val; rw [e0]; omega
    | ⟨1, _⟩ => show win1_2.index t (1 : Fin 2) * 256 + 1 * p.val = 256 * (t.val / 16) + p.val; rw [e1]; omega
  rw [hemb, Cert.Chamfer.nearest_apply]
  refine Eq.trans ?_ (acc_last V c ⟨t.val / 16, by omega⟩ b p ⟨256 * (t.val / 16) + p.val, by omega⟩ rfl
    (by have := t.isLt; show 16 * (t.val / 16) + 15 < cfg1.N; omega))
  show accAt V c t.val t.isLt (ix2 b p) = accAt V c (16 * (t.val / 16) + 15) _ (ix2 b p)
  exact congrFun (accAt_congr V c (by omega) _ _) (ix2 b p)

/-- The blocks written back tile the array, so it ends holding the field of nearest distances. -/
theorem final (V : (c : Dev nD) → (b : Ref sig .tc) → Buf (Elt Ideal) ((c : Thread nD τ).loc b)) (c : Dev nD) :
    (dat (F := Ideal) V c).arrAt 2 cfg1.N = Cert.Chamfer.nearest (V c main_arg1) (V c main_arg0) :=
  (dat V c).arrAt_eq_of_cover 2 _ (flushed_eq V c) fun i => by
    have h0 : (i 0 : ℕ) < 8 := (i 0).isLt
    have h1 : (i 1 : ℕ) < 4096 := (i 1).isLt
    have hN : cfg1.N = 256 := N_1
    have ht : 16 * ((i 1 : ℕ) / 256) + 15 < cfg1.N := by rw [hN]; omega
    obtain ⟨-, -, -, -, -, -, e0, e1⟩ := idx_facts ⟨16 * ((i 1 : ℕ) / 256) + 15, ht⟩
    have e1' : win1_2.index ⟨16 * ((i 1 : ℕ) / 256) + 15, ht⟩ (1 : Fin 2) = (16 * ((i 1 : ℕ) / 256) + 15) / 16 := e1
    refine ⟨⟨16 * ((i 1 : ℕ) / 256) + 15, ht⟩,
      (flush1_2 _).mpr (by show (16 * ((i 1 : ℕ) / 256) + 15) % 16 = 15; omega), ?_⟩
    show i ∈ ((View.whole main_v1).slice (win1_2.rect ⟨16 * ((i 1 : ℕ) / 256) + 15, ht⟩)).set
    rw [View.set_slice_whole, Rect.mem_set_unit]
    intro a
    match a with
    | ⟨0, _⟩ =>
      show win1_2.index ⟨16 * ((i 1 : ℕ) / 256) + 15, ht⟩ (0 : Fin 2) * 8 ≤ (i 0 : ℕ)
        ∧ (i 0 : ℕ) < win1_2.index ⟨16 * ((i 1 : ℕ) / 256) + 15, ht⟩ (0 : Fin 2) * 8 + 8
      rw [e0]; omega
    | ⟨1, _⟩ =>
      show win1_2.index ⟨16 * ((i 1 : ℕ) / 256) + 15, ht⟩ (1 : Fin 2) * 256 ≤ (i 1 : ℕ)
        ∧ (i 1 : ℕ) < win1_2.index ⟨16 * ((i 1 : ℕ) / 256) + 15, ht⟩ (1 : Fin 2) * 256 + 256
      rw [e1']; omega

end Cert.KernelIdeal.Nearest1

end
-- ==== Proof.KI.Result.lean ====
/-
  What the idealized kernel program returns. After the two regions the buffer of the first holds, at (b, i), the
  squared distance from point i of the first cloud to its nearest point of the second, and the buffer of the
  second region the same with the clouds exchanged; the nine host operations that follow take the mean of each
  field and add the two means — the function `finish` of the two fields, which is never opened here.
-/
import proofs.«172201_j74955769249969_1_alg».proof.Proof.KI.Chain
import proofs.«172201_j74955769249969_1_alg».proof.Proof.KI.Value0
import proofs.«172201_j74955769249969_1_alg».proof.Proof.KI.Value1
import proofs.«172201_j74955769249969_1_alg».proof.Proof.Spec
import Idealize.ShloMosaic.Lib.StableHlo.Run

noncomputable section

namespace Cert.KernelIdeal.Chain

open Cert.KernelIdeal Cert.KernelIdeal.Gen
open Idealize.ShloMosaic Idealize.ShloMosaic.TcCoe Idealize.ShloMosaic.Tactic
open Idealize.SL Idealize.SL.Sem Idealize.ShloMosaic.StableHlo

variable (m : (ℓ : Loc nD τ sig) → Buf (Elt Ideal) ℓ) (ρ : Dev nD → PrngReg)

/-- The first region reads the two clouds and writes neither. -/
theorem W1_arg0 (c : Dev nD) : W1 m c (Proc.devRef .tc main_arg0) = m ((c : Thread nD τ).loc main_arg0) :=
  (W1_arr m c 0).trans (((Nearest0.dat (V0 m) c).arrAt_in 0 rfl _).trans (Nearest0.A_eq (V0 m) c 0))
theorem W1_arg1 (c : Dev nD) : W1 m c (Proc.devRef .tc main_arg1) = m ((c : Thread nD τ).loc main_arg1) :=
  (W1_arr m c 1).trans (((Nearest0.dat (V0 m) c).arrAt_in 1 rfl _).trans (Nearest0.A_eq (V0 m) c 1))

/-- The result buffer after the host operations: the two means of the two fields of nearest distances, added. -/
theorem result (c : Dev nD) :
    W3 (F := Ideal) m c (Proc.devRef .tc main_v6)
      = Cert.Chamfer.finish Gen.reducesTo_S8x4096_S_d0_1 Gen.h_S_
          (Cert.Chamfer.nearest (m ((c : Thread nD τ).loc main_arg1)) (m ((c : Thread nD τ).loc main_arg0)))
          (Cert.Chamfer.nearest (m ((c : Thread nD τ).loc main_arg0)) (m ((c : Thread nD τ).loc main_arg1))) := by
  have e1 : W2 m c (Proc.devRef .tc main_v1)
      = Cert.Chamfer.nearest (m ((c : Thread nD τ).loc main_arg1)) (m ((c : Thread nD τ).loc main_arg0)) :=
    (W2_arr m c 2).trans ((Nearest1.final (V1 m) c).trans
      (by rw [show V1 m c main_arg1 = _ from W1_arg1 m c, show V1 m c main_arg0 = _ from W1_arg0 m c]))
  have e0 : W2 m c (Proc.devRef .tc main_v0)
      = Cert.Chamfer.nearest (m ((c : Thread nD τ).loc main_arg0)) (m ((c : Thread nD τ).loc main_arg1)) :=
    (W2_of_ne m c main_v0 (by decide)).trans ((W1_arr m c 2).trans (Nearest0.final (V0 m) c))
  show StableHlo.after hostOps2 (W2 m c) (Proc.devRef .tc main_v6) = _
  generalize W2 m c = W at e0 e1 ⊢
  after_results
  rw [e0, e1]
  rfl

/-- The idealized kernel program's run, read: the result at `finish` of the two fields, the arguments unchanged. -/
theorem run : θ_run defs (onTc (τ := τ) (main (F := Ideal))) ⟨m, fun _ => 0, ρ⟩ (fun r => ∀ c : Dev nD,
      r.2.mem ((c.tc : Thread nD τ).loc main_v6)
        = Cert.Chamfer.finish Gen.reducesTo_S8x4096_S_d0_1 Gen.h_S_
            (Cert.Chamfer.nearest (m ((c : Thread nD τ).loc main_arg1)) (m ((c : Thread nD τ).loc main_arg0)))
            (Cert.Chamfer.nearest (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v6 (by decide))).trans (result m c),
     (h c _ (mem_uc main_arg0 (by decide))).trans (W3_main_arg0 m c),
     (h c _ (mem_uc main_arg1 (by decide))).trans (W3_main_arg1 m c)⟩) (run_all m ρ)

end Cert.KernelIdeal.Chain

end
-- ==== Proof.RefValue.lean ====
/-
  The reference program's result, read as the chamfer distance of the specification.

  The reference forms the array P[b, i, j] = (|x_i|² + |y_j|²) − 2 · ⟨x_i, y_j⟩ over all pairs of points of the two
  clouds, takes its minimum over the middle axis (for each point y_j, the nearest x_i) and over the last axis (for
  each point x_i, the nearest y_j), and adds the means of the two fields of minima. Element by element P is the
  specification's `dist`: the two sums of squares start from the zero word, which adds nothing, the broadcasts only
  repeat a value along an axis, and the contraction is the sum over the three coordinates. Each minimum is a fold of
  `min` from +∞ over one axis; over the last axis this is `nearest x y` as it stands, over the middle axis it is
  `nearest y x` once the squared distance's two clouds are exchanged under the fold. The two means and their sum are
  the specification's `finish`, applied to these two fields and never opened.
-/
import proofs.«172201_j74955769249969_1_alg».proof.Proof.Spec
import proofs.«172201_j74955769249969_1_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ### The pairwise term, one element at a time -/

/-- The index at which the first cloud's squared norm is read under the two broadcasts: batch `b`, point `i`. -/
theorem idx_x (b : Fin 8) (i j : Fin 4096) (k : Fin 3) :
    Read.idx_main_v1 (Read.idx_main_v5 (Read.idx_main_v7 (ix3 b i j))) k = (ix3 b i k : S8x4096x3.Idx) :=
  funext fun a => Fin.ext (by match a with | ⟨0, _⟩ => rfl | ⟨1, _⟩ => rfl | ⟨2, _⟩ => rfl)

/-- The index at which the second cloud's squared norm is read under the two broadcasts: batch `b`, point `j`. -/
theorem idx_y (b : Fin 8) (i j : Fin 4096) (k : Fin 3) :
    Read.idx_main_v3 (Read.idx_main_v6 (Read.idx_main_v8 (ix3 b i j))) k = (ix3 b j k : S8x4096x3.Idx) :=
  funext fun a => Fin.ext (by match a with | ⟨0, _⟩ => rfl | ⟨1, _⟩ => rfl | ⟨2, _⟩ => rfl)

/-- The contraction reads the first cloud at point `i` … -/
theorem idx_l (b : Fin 8) (i j : Fin 4096) (k : Fin 3) :
    Read.lidx_main_v4 (ix3 b i j) k = (ix3 b i k : S8x4096x3.Idx) :=
  funext fun a => Fin.ext (by match a with | ⟨0, _⟩ => rfl | ⟨1, _⟩ => rfl | ⟨2, _⟩ => rfl)

/-- … and the second at point `j`. -/
theorem idx_r (b : Fin 8) (i j : Fin 4096) (k : Fin 3) :
    Read.ridx_main_v4 (ix3 b i j) k = (ix3 b j k : S8x4096x3.Idx) :=
  funext fun a => Fin.ext (by match a with | ⟨0, _⟩ => rfl | ⟨1, _⟩ => rfl | ⟨2, _⟩ => rfl)

/-- The array the two minima are taken over is the squared distance, element by element: the two sums of squares
    start from the zero word, which adds nothing, and the contraction is the sum over the three coordinates. -/
theorem P_apply (p1 p2 : Cert.Chamfer.Cloud) (b : Fin 8) (i j : Fin 4096) :
    Read.val_main_v12 (F := Ideal) p1 p2 (ix3 b i j) = Cert.Chamfer.dist p1 p2 b i j := by
  rw [Read.val_main_v12_apply, Read.val_main_v9_apply, Read.val_main_v7_apply, Read.val_main_v5_apply, Read.val_main_v1_apply,
    Read.val_main_v8_apply, Read.val_main_v6_apply, Read.val_main_v3_apply, Read.val_main_v11_apply, Read.val_main_v10_apply,
    Read.val_main_cst_1_apply, Read.val_main_v4_apply, Read.val_main_cst_apply, Read.val_main_cst_0_apply]
  simp only [Read.val_main_v0_apply, Read.val_main_v2_apply, Ideal.addf_def, Ideal.subf_def, Ideal.mulf_def, Ideal.ofBits_def,
    Ideal.ofBits_zero_f32, zero_add, idx_x, idx_y, idx_l, idx_r]
  rfl

/-! ### The two minima, read as folds over one axis -/

/-- Over the last axis, the source index above `(b, r)` with coordinate `k` inserted is `(b, r, k)`. -/
theorem lift_axis2 (h : S8x4096x4096.Reduces [2] S8x4096) (b : Fin 8) (r k : Fin 4096) :
    h.lift (ix2 b r) k = (ix3 b r k : S8x4096x4096.Idx) :=
  funext fun c => Fin.ext (by match c with | ⟨0, _⟩ => rfl | ⟨1, _⟩ => rfl | ⟨2, _⟩ => rfl)

/-- Over the middle axis it is `(b, k, r)`. -/
theorem lift_axis1 (h : S8x4096x4096.Reduces [1] S8x4096) (b : Fin 8) (r k : Fin 4096) :
    h.lift (ix2 b r) k = (ix3 b k r : S8x4096x4096.Idx) :=
  funext fun c => Fin.ext (by match c with | ⟨0, _⟩ => rfl | ⟨1, _⟩ => rfl | ⟨2, _⟩ => rfl)

/-- The minimum over the last axis, at `(b, r)`: the fold of `min` from the initial value over `k ↦ x (b, r, k)`. -/
theorem min_axis2 (x : S8x4096x4096.Idx → EReal) (init : S_.Idx → EReal) (b : Fin 8) (r : Fin 4096) :
    Host.reduce (FloatOps.minimumf (F := Ideal) (φ := .f32)) x init reducesTo_S8x4096x4096_S8x4096_d2 h_S_ (ix2 b r)
      = (Finset.univ : Finset (Fin 4096)).fold min (init (Shape.Idx.first h_S_)) (fun k => x (ix3 b r k)) :=
  (Host.reduce_eq_fold_single _ x init reducesTo_S8x4096x4096_S8x4096_d2 (by decide) h_S_ (ix2 b r)).trans
    (Finset.fold_congr fun k _ => congrArg x (lift_axis2 _ b r k))

/-- The minimum over the middle axis, at `(b, r)`: the fold of `min` from the initial value over `k ↦ x (b, k, r)`. -/
theorem min_axis1 (x : S8x4096x4096.Idx → EReal) (init : S_.Idx → EReal) (b : Fin 8) (r : Fin 4096) :
    Host.reduce (FloatOps.minimumf (F := Ideal) (φ := .f32)) x init reducesTo_S8x4096x4096_S8x4096_d1 h_S_ (ix2 b r)
      = (Finset.univ : Finset (Fin 4096)).fold min (init (Shape.Idx.first h_S_)) (fun k => x (ix3 b k r)) :=
  (Host.reduce_eq_fold_single _ x init reducesTo_S8x4096x4096_S8x4096_d1 (by decide) h_S_ (ix2 b r)).trans
    (Finset.fold_congr fun k _ => congrArg x (lift_axis1 _ b r k))

/-! ### The two fields of nearest distances -/

/-- The minimum over the last axis is, at point `i` of the first cloud, the distance to the nearest point of the second. -/
theorem v16_eq (p1 p2 : Cert.Chamfer.Cloud) :
    Read.val_main_v16 (F := Ideal) p1 p2 = Cert.Chamfer.nearest p1 p2 := by
  funext r
  obtain ⟨b, i, rfl⟩ : ∃ (b : Fin 8) (i : Fin 4096), r = ix2 b i := ⟨r 0, r 1, eq_ix2 r⟩
  rw [Cert.Chamfer.nearest_apply]
  unfold Read.val_main_v16 Cert.Chamfer.nearestAt
  exact (min_axis2 _ _ b i).trans (Finset.fold_congr fun k _ => P_apply p1 p2 b i k)

/-- The minimum over the middle axis is, at point `j` of the second cloud, the distance to the nearest point of the
    first: the squared distance does not see the order of the clouds. -/
theorem v13_eq (p1 p2 : Cert.Chamfer.Cloud) :
    Read.val_main_v13 (F := Ideal) p1 p2 = Cert.Chamfer.nearest p2 p1 := by
  funext r
  obtain ⟨b, j, rfl⟩ : ∃ (b : Fin 8) (j : Fin 4096), r = ix2 b j := ⟨r 0, r 1, eq_ix2 r⟩
  rw [Cert.Chamfer.nearest_apply]
  unfold Read.val_main_v13 Cert.Chamfer.nearestAt
  exact (min_axis1 _ _ b j).trans
    (Finset.fold_congr fun k _ => (P_apply p1 p2 b k j).trans (Cert.Chamfer.dist_swap p1 p2 b k j))

/-! ### The result -/

/-- The reference's result is the two means of the nearest distances, added. -/
theorem result_eq (p1 p2 : Cert.Chamfer.Cloud) :
    Cert.ReferenceIdeal.Read.val_main_v19 (F := Ideal) p1 p2
      = Cert.Chamfer.finish reducesTo_S8x4096_S_d0_1 h_S_ (Cert.Chamfer.nearest p2 p1) (Cert.Chamfer.nearest p1 p2) := by
  unfold Read.val_main_v19 Read.val_main_v15 Read.val_main_v18 Read.val_main_v14 Read.val_main_v17
  rw [v13_eq, v16_eq]
  rfl

/-- Every weakly fair execution of the reference ends with its result at the chamfer distance of the two arguments'
    launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
        = Cert.Chamfer.finish reducesTo_S8x4096_S_d0_1 h_S_
            (Cert.Chamfer.nearest (m ((c.tc : Thread nD τ).loc main_arg1)) (m ((c.tc : Thread nD τ).loc main_arg0)))
            (Cert.Chamfer.nearest (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((Read.val_main_v19_eq _ _).trans (result_eq _ _)), (h c).2⟩)
    (Cert.ReferenceIdeal.Value.run (F := Ideal) m ρ)

end Cert.ReferenceIdeal.RefValue

end
-- ==== Proof.lean ====
/-
  The chamfer distance of two clouds of 8 × 4096 points: a tiled nearest-point kernel against its jnp reference.

  The kernel program runs one Pallas kernel twice — over (p1, p2) and over (p2, p1) — and then takes two means
  and adds them. The kernel walks a 16 × 16 grid of 256-point tiles; for row tile i it keeps in a scratch block
  the running minimum, over the column tiles j seen so far, of the squared distances
      (|x_r|² + |y_c|²) − 2 ⟨x_r, y_c⟩,
  reset to +∞ at j = 0 and written to the output at j = 15. Over the extended reals a minimum taken tile by tile
  is the minimum over all 4096 columns, a matmul of bf16-rounded blocks is the exact inner product, and exchanging
  the two clouds only commutes a sum and a product; so the first call leaves, at (b, i), the distance from point i
  of p1 to its nearest point of p2 (the reference's minimum over axis 2), the second the reference's minimum over
  axis 1, and the two programs finish with the same host operations. No law used needs a finite input.

  The frames of the two kernel programs are one proof, stated for any float values and read at the word-level and
  at the ideal instance: each region's body is run once per case of its two conditionals, the scratch is carried
  between points in the region's invariant, and the program is the two regions followed by the host operations.
-/
import proofs.«172201_j74955769249969_1_alg».proof.Defs
import proofs.«172201_j74955769249969_1_alg».proof.Proof.Gen.Kernel
import proofs.«172201_j74955769249969_1_alg».proof.Proof.Gen.KernelIdeal
import proofs.«172201_j74955769249969_1_alg».proof.Proof.Gen.ReferenceIdeal
import proofs.«172201_j74955769249969_1_alg».proof.Proof.Gen.Pre_finite_inputs
import proofs.«172201_j74955769249969_1_alg».proof.Proof.KB.Chain
import proofs.«172201_j74955769249969_1_alg».proof.Proof.KI.Result
import proofs.«172201_j74955769249969_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves both clouds as launched. -/
theorem frame_k : Cert.frame_Kernel (hKernel := Cert.Kernel.Gen.facts) (hPre_finite_inputs := Cert.Pre_finite_inputs.Gen.facts) :=
  fun m ρ _ => Cert.Kernel.Chain.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Chain.frame (F := Ideal) m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at `finish` of the field of nearest distances from p2 to p1 and of that from p1 to
    p2, the clouds being the same on both sides. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
